-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S1024x1024 : Shape := ⟨2, ![1024, 1024]⟩
abbrev S2048x1024 : Shape := ⟨2, ![2048, 1024]⟩
abbrev S1024 : Shape := ⟨1, ![1024]⟩
abbrev S16x1024 : Shape := ⟨2, ![16, 1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S16x1024x1024 .f32) (main_arg1 : FVec F S16x1024x1024 .f32) (main_arg2 : FVec F S1024x1024 .f32) (main_arg3 : FVec F S2048x1024 .f32) (main_arg4 : FVec F S1024 .f32) (main_arg5 : IVec S16x1024 32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_v13 main_v16
-- ==== Kernel.lean ====
abbrev S16x1024x1024 : Shape := ⟨3, ![16, 1024, 1024]⟩
abbrev S1024x1024 : Shape := ⟨2, ![1024, 1024]⟩
abbrev S2048x1024 : Shape := ⟨2, ![2048, 1024]⟩
abbrev S1024 : Shape := ⟨1, ![1024]⟩
abbrev S16x1024 : Shape := ⟨2, ![16, 1024]⟩
abbrev S_ : Shape := ⟨0, ![]⟩
abbrev S16 : Shape := ⟨1, ![16]⟩
abbrev S1x1024 : Shape := ⟨2, ![1, 1024]⟩
abbrev S16x1 : Shape := ⟨2, ![16, 1]⟩
abbrev S16x1x1024 : Shape := ⟨3, ![16, 1, 1024]⟩
abbrev S1x256x1024 : Shape := ⟨3, ![1, 256, 1024]⟩
abbrev S1x1024x1024 : Shape := ⟨3, ![1, 1024, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩

abbrev nBuf : Space → Nat
  | .hbm => 27
  | .vmem => 13
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S1024x1024, .f32⟩
  | .hbm, ⟨3, _⟩ => ⟨S2048x1024, .f32⟩
  | .hbm, ⟨4, _⟩ => ⟨S1024, .f32⟩
  | .hbm, ⟨5, _⟩ => ⟨S16x1024, .i32⟩
  | .hbm, ⟨6, _⟩ => ⟨S_, .i32⟩
  | .hbm, ⟨7, _⟩ => ⟨S16x1024, .i32⟩
  | .hbm, ⟨8, _⟩ => ⟨S16x1024, .i1⟩
  | .hbm, ⟨9, _⟩ => ⟨S16x1024, .i32⟩
  | .hbm, ⟨10, _⟩ => ⟨S_, .i32⟩
  | .hbm, ⟨11, _⟩ => ⟨S16, .i32⟩
  | .hbm, ⟨12, _⟩ => ⟨S1024, .i32⟩
  | .hbm, ⟨13, _⟩ => ⟨S1x1024, .i32⟩
  | .hbm, ⟨14, _⟩ => ⟨S16x1, .i32⟩
  | .hbm, ⟨15, _⟩ => ⟨S16x1024, .i32⟩
  | .hbm, ⟨16, _⟩ => ⟨S16x1024, .i32⟩
  | .hbm, ⟨17, _⟩ => ⟨S16x1024, .i1⟩
  | .hbm, ⟨18, _⟩ => ⟨S16x1024, .f32⟩
  | .hbm, ⟨19, _⟩ => ⟨S16x1x1024, .f32⟩
  | .hbm, ⟨20, _⟩ => ⟨S1x1024, .f32⟩
  | .hbm, ⟨21, _⟩ => ⟨S1024x1024, .bf16⟩
  | .hbm, ⟨22, _⟩ => ⟨S1024x1024, .f32⟩
  | .hbm, ⟨23, _⟩ => ⟨S1024x1024, .bf16⟩
  | .hbm, ⟨24, _⟩ => ⟨S1024x1024, .f32⟩
  | .hbm, ⟨25, _⟩ => ⟨S1024x1024, .bf16⟩
  | .hbm, ⟨26, _⟩ => ⟨S16x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x256x1024, .f32⟩
  | .local _ .vmem, ⟨11, _⟩ => ⟨S1x256x1024, .f32⟩
  | .local _ .vmem, ⟨12, _⟩ => ⟨S1024x1024, .bf16⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bcast_S_S16x1024 : S_.BroadcastsInDim S16x1024 (![] : Fin 0 → Fin S16x1024.rank)
  natLt_1_32 : 1 < 32
  reducesTo_S16x1024_S16_d1 : S16x1024.ReducesTo [1] S16
  h_S_ : 0 < S_.numel
  bcast_S1024_S1x1024_1 : S1024.BroadcastsInDim S1x1024 (![1] : Fin 1 → Fin S1x1024.rank)
  bcast_S16_S16x1_0 : S16.BroadcastsInDim S16x1 (![0] : Fin 1 → Fin S16x1.rank)
  bcast_S1x1024_S16x1024_0_1 : S1x1024.BroadcastsInDim S16x1024 (![0, 1] : Fin 2 → Fin S16x1024.rank)
  bcast_S16x1_S16x1024_0_1 : S16x1.BroadcastsInDim S16x1024 (![0, 1] : Fin 2 → Fin S16x1024.rank)
  shapeCasts_S16x1024_S16x1x1024 : S16x1024.ShapeCasts S16x1x1024
  shapeCasts_S1024_S1x1024 : S1024.ShapeCasts S1x1024
  bitsLt_bf16_f32 : FTy.bits .bf16 < FTy.bits .f32
  slices_S2048x1024_S1024x1024_0_0 : S2048x1024.Slices ![0, 0] S1024x1024
  slices_S2048x1024_S1024x1024_1024_0 : S2048x1024.Slices ![1024, 0] S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  reduces_S256x1024_S256 : S256x1024.Reduces [1] S256
  shapeCasts_S256_S256x1 : S256.ShapeCasts S256x1
  broadcasts_S256x1_S256x1024 : S256x1.Broadcasts S256x1024
  broadcasts_S1x1024_S256x1024 : S1x1024.Broadcasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S256x1024_S1x256x1024 : S256x1024.ShapeCasts S1x256x1024
  dot_S1024x1024_S1024x1024_S1024x1024_1_0_0_1_n_n_wf : DotDims.WF S1024x1024 S1024x1024 S1024x1024 [1] [0] [0] [1] [] []
  dot_S256x1024_S1024x1024_S256x1024_1_1_0_0_n_n_wf : DotDims.WF S256x1024 S1024x1024 S256x1024 [1] [1] [0] [0] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x1024x1024.size a
  hwx0_0 : ∀ i : grid0.Coords, EltTy.bits .f32 = 32 ∨ (Rect.block (s := S16x1024x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .f32 = 32 ∨ (Rect.block (s := S16x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S16x1x1024.size a
  hwx0_2 : ∀ i : grid0.Coords, EltTy.bits .f32 = 32 ∨ (Rect.block (s := S16x1x1024) S1x1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x1024.size a ≤ S16x1024x1024.size a
  hwx0_7 : ∀ i : grid0.Coords, EltTy.bits .f32 = 32 ∨ (Rect.block (s := S16x1024x1024) S1x256x1024.size (cc0_transform_7 i) (hinb0_7 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S1024x1024 : Shape := ⟨2, ![1024, 1024]⟩
abbrev S2048x1024 : Shape := ⟨2, ![2048, 1024]⟩
abbrev S1024 : Shape := ⟨1, ![1024]⟩
abbrev S16x1024 : Shape := ⟨2, ![16, 1024]⟩
abbrev S_ : Shape := ⟨0, ![]⟩
abbrev S16x1024x1 : Shape := ⟨3, ![16, 1024, 1]⟩
abbrev S16 : Shape := ⟨1, ![16]⟩
abbrev S1x1024 : Shape := ⟨2, ![1, 1024]⟩
abbrev S16x1 : Shape := ⟨2, ![16, 1]⟩
abbrev S16x1x1024 : Shape := ⟨3, ![16, 1, 1024]⟩
abbrev S16x1024x2048 : Shape := ⟨3, ![16, 1024, 2048]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S1024x1024, .f32⟩
  | .hbm, ⟨3, _⟩ => ⟨S2048x1024, .f32⟩
  | .hbm, ⟨4, _⟩ => ⟨S1024, .f32⟩
  | .hbm, ⟨5, _⟩ => ⟨S16x1024, .i32⟩
  | .hbm, ⟨6, _⟩ => ⟨S16x1024x1024, .f32⟩
  | .hbm, ⟨7, _⟩ => ⟨S16x1024x1024, .f32⟩
  | .hbm, ⟨8, _⟩ => ⟨S_, .f32⟩
  | .hbm, ⟨9, _⟩ => ⟨S16x1024, .f32⟩
  | .hbm, ⟨10, _⟩ => ⟨S16x1024x1, .f32⟩
  | .hbm, ⟨11, _⟩ => ⟨S16x1024x1024, .f32⟩
  | .hbm, ⟨12, _⟩ => ⟨S16x1024x1024, .f32⟩
  | .hbm, ⟨13, _⟩ => ⟨S_, .i32⟩
  | .hbm, ⟨14, _⟩ => ⟨S16x1024, .i32⟩
  | .hbm, ⟨15, _⟩ => ⟨S16x1024, .i1⟩
  | .hbm, ⟨16, _⟩ => ⟨S16x1024, .i32⟩
  | .hbm, ⟨17, _⟩ => ⟨S_, .i32⟩
  | .hbm, ⟨18, _⟩ => ⟨S16, .i32⟩
  | .hbm, ⟨19, _⟩ => ⟨S1024, .i32⟩
  | .hbm, ⟨20, _⟩ => ⟨S1x1024, .i32⟩
  | .hbm, ⟨21, _⟩ => ⟨S16x1, .i32⟩
  | .hbm, ⟨22, _⟩ => ⟨S16x1024, .i32⟩
  | .hbm, ⟨23, _⟩ => ⟨S16x1024, .i32⟩
  | .hbm, ⟨24, _⟩ => ⟨S16x1024, .i1⟩
  | .hbm, ⟨25, _⟩ => ⟨S16x1024, .f32⟩
  | .hbm, ⟨26, _⟩ => ⟨S16x1024x1024, .f32⟩
  | .hbm, ⟨27, _⟩ => ⟨S16x1x1024, .f32⟩
  | .hbm, ⟨28, _⟩ => ⟨S16x1024x1024, .f32⟩
  | .hbm, ⟨29, _⟩ => ⟨S16x1024x1024, .f32⟩
  | .hbm, ⟨30, _⟩ => ⟨S_, .f32⟩
  | .hbm, ⟨31, _⟩ => ⟨S16x1024, .f32⟩
  | .hbm, ⟨32, _⟩ => ⟨S16x1024x1, .f32⟩
  | .hbm, ⟨33, _⟩ => ⟨S16x1024x1024, .f32⟩
  | .hbm, ⟨34, _⟩ => ⟨S16x1024x1024, .f32⟩
  | .hbm, ⟨35, _⟩ => ⟨S16x1024x1024, .f32⟩
  | .hbm, ⟨36, _⟩ => ⟨S16x1024x2048, .f32⟩
  | .hbm, ⟨37, _⟩ => ⟨S16x1024x1024, .f32⟩
  | .hbm, ⟨38, _⟩ => ⟨S1x1x1024, .f32⟩
  | .hbm, ⟨39, _⟩ => ⟨S16x1024x1024, .f32⟩
  | .hbm, ⟨40, _⟩ => ⟨S16x1024x1024, .f32⟩
  | .hbm, ⟨41, _⟩ => ⟨S16x1024x1024, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]

class Facts₀ : Prop where
  reducesTo_S16x1024x1024_S16x1024_d2 : S16x1024x1024.ReducesTo [2] S16x1024
  h_S_ : 0 < S_.numel
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  bcast_S_S16x1024 : S_.BroadcastsInDim S16x1024 (![] : Fin 0 → Fin S16x1024.rank)
  natLt_1_32 : 1 < 32
  reducesTo_S16x1024_S16_d1 : S16x1024.ReducesTo [1] S16
  bcast_S1024_S1x1024_1 : S1024.BroadcastsInDim S1x1024 (![1] : Fin 1 → Fin S1x1024.rank)
  bcast_S16_S16x1_0 : S16.BroadcastsInDim S16x1 (![0] : Fin 1 → Fin S16x1.rank)
  bcast_S1x1024_S16x1024_0_1 : S1x1024.BroadcastsInDim S16x1024 (![0, 1] : Fin 2 → Fin S16x1024.rank)
  bcast_S16x1_S16x1024_0_1 : S16x1.BroadcastsInDim S16x1024 (![0, 1] : Fin 2 → Fin S16x1024.rank)
  bcast_S16x1024_S16x1x1024_0_2 : S16x1024.BroadcastsInDim S16x1x1024 (![0, 2] : Fin 2 → Fin S16x1x1024.rank)
  bcast_S16x1x1024_S16x1024x1024_0_1_2 : S16x1x1024.BroadcastsInDim S16x1024x1024 (![0, 1, 2] : Fin 3 → Fin S16x1024x1024.rank)
  concatenates_S16x1024x1024_S16x1024x1024_S16x1024x2048_d2 : Shape.Concatenates [S16x1024x1024, S16x1024x1024] S16x1024x2048 2
  bcast_S1024_S1x1x1024_2 : S1024.BroadcastsInDim S1x1x1024 (![2] : Fin 1 → Fin S1x1x1024.rank)
  bcast_S1x1x1024_S16x1024x1024_0_1_2 : S1x1x1024.BroadcastsInDim S16x1024x1024 (![0, 1, 2] : Fin 3 → Fin S16x1024x1024.rank)
  dot_S16x1024x1024_S1024x1024_S16x1024x1024_2_0_01_1_n_n_wf : DotDims.WF S16x1024x1024 S1024x1024 S16x1024x1024 [2] [0] [0, 1] [1] [] []
  dot_S16x1024x1024_S16x1024x1024_S16x1024x1024_2_2_1_1_0_0_wf : DotDims.WF S16x1024x1024 S16x1024x1024 S16x1024x1024 [2] [2] [1] [1] [0] [0]
  dot_S16x1024x1024_S16x1024x1024_S16x1024x1024_2_1_1_2_0_0_wf : DotDims.WF S16x1024x1024 S16x1024x1024 S16x1024x1024 [2] [1] [1] [2] [0] [0]
  dot_S16x1024x2048_S2048x1024_S16x1024x1024_2_0_01_1_n_n_wf : DotDims.WF S16x1024x2048 S2048x1024 S16x1024x1024 [2] [0] [0, 1] [1] [] []

variable [Facts₀]

def dot_S16x1024x1024_S1024x1024_S16x1024x1024_2_0_01_1_n_n : DotDims S16x1024x1024 S1024x1024 S16x1024x1024 where
  lhsContracting := [2]
  rhsContracting := [0]
  lhsNonContracting := [0, 1]
  rhsNonContracting := [1]
  lhsBatch := []
  rhsBatch := []
  wf := dot_S16x1024x1024_S1024x1024_S16x1024x1024_2_0_01_1_n_n_wf
def dot_S16x1024x1024_S16x1024x1024_S16x1024x1024_2_2_1_1_0_0 : DotDims S16x1024x1024 S16x1024x1024 S16x1024x1024 where
  lhsContracting := [2]
  rhsContracting := [2]
  lhsNonContracting := [1]
  rhsNonContracting := [1]
  lhsBatch := [0]
  rhsBatch := [0]
  wf := dot_S16x1024x1024_S16x1024x1024_S16x1024x1024_2_2_1_1_0_0_wf
def dot_S16x1024x1024_S16x1024x1024_S16x1024x1024_2_1_1_2_0_0 : DotDims S16x1024x1024 S16x1024x1024 S16x1024x1024 where
  lhsContracting := [2]
  rhsContracting := [1]
  lhsNonContracting := [1]
  rhsNonContracting := [2]
  lhsBatch := [0]
  rhsBatch := [0]
  wf := dot_S16x1024x1024_S16x1024x1024_S16x1024x1024_2_1_1_2_0_0_wf
def dot_S16x1024x2048_S2048x1024_S16x1024x1024_2_0_01_1_n_n : DotDims S16x1024x2048 S2048x1024 S16x1024x1024 where
  lhsContracting := [2]
  rhsContracting := [0]
  lhsNonContracting := [0, 1]
  rhsNonContracting := [1]
  lhsBatch := []
  rhsBatch := []
  wf := dot_S16x1024x2048_S2048x1024_S16x1024x1024_2_0_01_1_n_n_wf

class Facts : Prop extends Facts₀ where

variable [Facts]
-- ==== Proof.Blocks.lean ====
/-
  What the kernel's windows hold, on the extended reals.

  Before the region the host operations lay out the small arrays the kernel stages: the mask (computed from
  `source` by integer operations, kept here as one term `maskK`) with a unit axis in the middle, the bias as one row,
  W_a, and the top and bottom halves of W_c — the last three in a narrower float format, which on the extended
  reals is the same value. The grid has 64 points; point `t` is batch `t / 4` and target tile `t % 4`. At a point
  the windows' blocks are: rows `256 · (t % 4) …` of batch `t / 4` of ht; all of batch `t / 4` of hs; that batch's row
  of the mask; W_a; the two halves of W_c; the bias. Each block is read at an index of the argument arrays: an
  element of a block sits, on each axis, at the block's index times the block's size plus its own coordinate.
-/
import proofs.«178514_j70205535420559_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx

/-! ## What the host operations before the region leave in the arrays the windows stage -/

section AnyInstance

variable {F : FTy → Type} [FloatOps F]
variable (m : (ℓ : Loc nD τ sig) → Buf (Elt F) ℓ)

/-- The mask the host operations compute from `source`: position `s` of batch `b` is kept when `s` is below the number
    of nonzero tokens of the batch; as a float, 1 or 0. (Integer operations: carried as one term, never opened.) -/
def maskK (x5 : (⟨S16x1024, .i32⟩ : BufTy).Contents (Elt F)) : (⟨S16x1024, .f32⟩ : BufTy).Contents (Elt F) :=
  uitofp .f32 (cmpi .slt
    (broadcastInDim S16x1024 ![0, 1] bcast_S1x1024_S16x1024_0_1 (broadcastInDim S1x1024 ![1] bcast_S1024_S1x1024_1 (iotaInDim S1024 32 0)))
    (broadcastInDim S16x1024 ![0, 1] bcast_S16x1_S16x1024_0_1 (broadcastInDim S16x1 ![0] bcast_S16_S16x1_0
      (Host.reduce IntOp.addi (extui 32 (cmpi .ne x5 (broadcastInDim S16x1024 ![] bcast_S_S16x1024 (constantI S_ 32 0#32))) natLt_1_32)
        (constantI S_ 32 0#32) reducesTo_S16x1024_S16_d1 h_S_))))

/-- The mask window's array is the mask with a unit axis in the middle. -/
theorem V_v11 (c : Dev nD) :
    V m c main_v11 = shapeCast S16x1x1024 (maskK (m ((c : Thread nD τ).loc main_arg5))) shapeCasts_S16x1024_S16x1x1024 := by
  dsimp only [Gen.V, Gen.hostOps0]
  after_results
  rfl

/-- The bias window's array is the bias as one row. -/
theorem V_v12 (c : Dev nD) :
    V m c main_v12 = shapeCast S1x1024 (m ((c : Thread nD τ).loc main_arg4)) shapeCasts_S1024_S1x1024 := by
  dsimp only [Gen.V, Gen.hostOps0]
  after_results
  rfl

/-- The W_a window's array is W_a in the narrower format. -/
theorem V_v13 (c : Dev nD) :
    V m c main_v13 = truncf .bf16 (m ((c : Thread nD τ).loc main_arg2)) bitsLt_bf16_f32 := by
  dsimp only [Gen.V, Gen.hostOps0]
  after_results

/-- The top-weights window's array is rows 0 … 1023 of W_c in the narrower format. -/
theorem V_v15 (c : Dev nD) :
    V m c main_v15 = truncf .bf16 (extractStridedSlice S1024x1024 ![0, 0] (m ((c : Thread nD τ).loc main_arg3)) slices_S2048x1024_S1024x1024_0_0) bitsLt_bf16_f32 := by
  dsimp only [Gen.V, Gen.hostOps0]
  after_results

/-- The bottom-weights window's array is rows 1024 … 2047 of W_c in the narrower format. -/
theorem V_v17 (c : Dev nD) :
    V m c main_v17 = truncf .bf16 (extractStridedSlice S1024x1024 ![1024, 0] (m ((c : Thread nD τ).loc main_arg3)) slices_S2048x1024_S1024x1024_1024_0) bitsLt_bf16_f32 := by
  dsimp only [Gen.V, Gen.hostOps0]
  after_results

end AnyInstance

/-! ## The index maps, decided over the 64 grid points

Point `t` is batch `t / 4`, target tile `t % 4`: the target and output windows move with both, the source and mask windows
with the batch only, and the weights and the bias stay. -/

theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val / 4 ∧ win0_7.index t (1 : Fin 3) = t.val % 4 ∧ win0_7.index t (2 : Fin 3) = 0 :=
  (by decide +kernel : ∀ t : Fin grid0.N, _)

/-! ## Each window's block at a point, read at an index, on the extended reals -/

section AtIdeal

variable (m : (ℓ : Loc nD τ sig) → Buf (Elt Ideal) ℓ)

/-- The target tile: row `p` of the tile is row `256 · (t % 4) + p` of batch `t / 4` of ht. -/
theorem blk0_at (c : Dev nD) (t : Fin cfg0.N) (p : Fin 256) (h : Fin 1024) (b : Fin 16) (r : Fin 1024)
    (hb : b.val = t.val / 4) (hr : r.val = 256 * (t.val % 4) + p.val) :
    iblk m c 0 t (ix3 (0 : Fin 1) p h) = m ((c : Thread nD τ).loc main_arg0) (ix3 b r h) := by
  obtain ⟨e0, e1, e2, -⟩ := idx_facts t
  unfold iblk
  rw [View.read_apply]
  show V m c main_arg0 (((cfg0.win 0).blk t).view.emb (ix3 (0 : Fin 1) p h)) = _
  rw [V_main_arg0 m c]
  congr 1
  funext a; apply Fin.ext
  match a with
  | ⟨0, _⟩ => show win0_0.index t (0 : Fin 3) * 1 + 1 * 0 = b.val; omega
  | ⟨1, _⟩ => show win0_0.index t (1 : Fin 3) * 256 + 1 * p.val = r.val; omega
  | ⟨2, _⟩ => show win0_0.index t (2 : Fin 3) * 1024 + 1 * h.val = h.val; omega

/-- The source block is all of batch `t / 4` of hs. -/
theorem blk1_at (c : Dev nD) (t : Fin cfg0.N) (s h : Fin 1024) (b : Fin 16) (hb : b.val = t.val / 4) :
    iblk m c 1 t (ix3 (0 : Fin 1) s h) = m ((c : Thread nD τ).loc main_arg1) (ix3 b s h) := by
  obtain ⟨-, -, -, e0, e1, e2, -⟩ := idx_facts t
  unfold iblk
  rw [View.read_apply]
  show V m c main_arg1 (((cfg0.win 1).blk t).view.emb (ix3 (0 : Fin 1) s h)) = _
  rw [V_main_arg1 m c]
  congr 1
  funext a; apply Fin.ext
  match a with
  | ⟨0, _⟩ => show win0_1.index t (0 : Fin 3) * 1 + 1 * 0 = b.val; omega
  | ⟨1, _⟩ => show win0_1.index t (1 : Fin 3) * 1024 + 1 * s.val = s.val; omega
  | ⟨2, _⟩ => show win0_1.index t (2 : Fin 3) * 1024 + 1 * h.val = h.val; omega

/-- The mask block is batch `t / 4`'s row of the mask. -/
theorem blk2_at (c : Dev nD) (t : Fin cfg0.N) (s : Fin 1024) (b : Fin 16) (hb : b.val = t.val / 4) :
    iblk m c 2 t (ix3 (0 : Fin 1) (0 : Fin 1) s) = maskK (m ((c : Thread nD τ).loc main_arg5)) (ix2 b s) := by
  obtain ⟨-, -, -, -, -, -, e0, e1, e2, -⟩ := idx_facts t
  unfold iblk
  rw [View.read_apply]
  show V m c main_v11 (((cfg0.win 2).blk t).view.emb (ix3 (0 : Fin 1) (0 : Fin 1) s)) = _
  have he : ((cfg0.win 2).blk t).view.emb (ix3 (0 : Fin 1) (0 : Fin 1) s) = ix3 b (0 : Fin 1) s := by
    funext a; apply Fin.ext
    match a with
    | ⟨0, _⟩ => show win0_2.index t (0 : Fin 3) * 1 + 1 * 0 = b.val; omega
    | ⟨1, _⟩ => show win0_2.index t (1 : Fin 3) * 1 + 1 * 0 = 0; omega
    | ⟨2, _⟩ => show win0_2.index t (2 : Fin 3) * 1024 + 1 * s.val = s.val; omega
  rw [he, V_v11]
  exact shapeCast_apply _ _ _ _ (by
    rw [Shape.rowMajor_val_two, Shape.rowMajor_val_three]
    show b.val * 1024 + s.val = (b.val * 1 + 0) * 1024 + s.val
    omega)

/-- The W_a block is W_a. -/
theorem blk3_at (c : Dev nD) (t : Fin cfg0.N) (h k : Fin 1024) :
    iblk m c 3 t (ix2 h k) = m ((c : Thread nD τ).loc main_arg2) (ix2 h k) := by
  obtain ⟨-, -, -, -, -, -, -, -, -, e0, e1, -⟩ := idx_facts t
  unfold iblk
  rw [View.read_apply]
  show V m c main_v13 (((cfg0.win 3).blk t).view.emb (ix2 h k)) = _
  have he : ((cfg0.win 3).blk t).view.emb (ix2 h k) = ix2 h k := by
    funext a; apply Fin.ext
    match a with
    | ⟨0, _⟩ => show win0_3.index t (0 : Fin 2) * 1024 + 1 * h.val = h.val; omega
    | ⟨1, _⟩ => show win0_3.index t (1 : Fin 2) * 1024 + 1 * k.val = k.val; omega
  rw [he, V_v13]
  rfl

/-- The top-weights block is rows 0 … 1023 of W_c. -/
theorem blk4_at (c : Dev nD) (t : Fin cfg0.N) (k o : Fin 1024) :
    iblk m c 4 t (ix2 k o) = m ((c : Thread nD τ).loc main_arg3) (ix2 (⟨k.val, by omega⟩ : Fin 2048) o) := by
  obtain ⟨-, -, -, -, -, -, -, -, -, -, -, e0, e1, -⟩ := idx_facts t
  unfold iblk
  rw [View.read_apply]
  show V m c main_v15 (((cfg0.win 4).blk t).view.emb (ix2 k o)) = _
  have he : ((cfg0.win 4).blk t).view.emb (ix2 k o) = ix2 k o := by
    funext a; apply Fin.ext
    match a with
    | ⟨0, _⟩ => show win0_4.index t (0 : Fin 2) * 1024 + 1 * k.val = k.val; omega
    | ⟨1, _⟩ => show win0_4.index t (1 : Fin 2) * 1024 + 1 * o.val = o.val; omega
  rw [he, V_v15]
  exact slice2_axis0_apply 0 (m ((c : Thread nD τ).loc main_arg3)) slices_S2048x1024_S1024x1024_0_0 k o ⟨k.val, by omega⟩ (by simp)

/-- The bottom-weights block is rows 1024 … 2047 of W_c. -/
theorem blk5_at (c : Dev nD) (t : Fin cfg0.N) (k o : Fin 1024) :
    iblk m c 5 t (ix2 k o) = m ((c : Thread nD τ).loc main_arg3) (ix2 (⟨1024 + k.val, by omega⟩ : Fin 2048) o) := by
  obtain ⟨-, -, -, -, -, -, -, -, -, -, -, -, -, e0, e1, -⟩ := idx_facts t
  unfold iblk
  rw [View.read_apply]
  show V m c main_v17 (((cfg0.win 5).blk t).view.emb (ix2 k o)) = _
  have he : ((cfg0.win 5).blk t).view.emb (ix2 k o) = ix2 k o := by
    funext a; apply Fin.ext
    match a with
    | ⟨0, _⟩ => show win0_5.index t (0 : Fin 2) * 1024 + 1 * k.val = k.val; omega
    | ⟨1, _⟩ => show win0_5.index t (1 : Fin 2) * 1024 + 1 * o.val = o.val; omega
  rw [he, V_v17]
  exact slice2_axis0_apply 1024 (m ((c : Thread nD τ).loc main_arg3)) slices_S2048x1024_S1024x1024_1024_0 k o ⟨1024 + k.val, by omega⟩ rfl

/-- The bias block is the bias. -/
theorem blk6_at (c : Dev nD) (t : Fin cfg0.N) (j : Fin 1024) :
    iblk m c 6 t (ix2 (0 : Fin 1) j) = m ((c : Thread nD τ).loc main_arg4) (ix1 j) := by
  obtain ⟨-, -, -, -, -, -, -, -, -, -, -, -, -, -, -, e0, e1, -⟩ := idx_facts t
  unfold iblk
  rw [View.read_apply]
  show V m c main_v12 (((cfg0.win 6).blk t).view.emb (ix2 (0 : Fin 1) j)) = _
  have he : ((cfg0.win 6).blk t).view.emb (ix2 (0 : Fin 1) j) = ix2 (0 : Fin 1) j := by
    funext a; apply Fin.ext
    match a with
    | ⟨0, _⟩ => show win0_6.index t (0 : Fin 2) * 1 + 1 * 0 = 0; omega
    | ⟨1, _⟩ => show win0_6.index t (1 : Fin 2) * 1024 + 1 * j.val = j.val; omega
  rw [he, V_v12]
  exact shapeCast_a_1a_apply _ _ (0 : Fin 1) j

end AtIdeal

end Cert.KernelIdeal.KValue

end
-- ==== Proof.Pieces.lean ====
/-
  What each case of the kernel body leaves behind, as values of the body's loads (at any float instance).

  The body runs in two cases. At the first target tile of a batch (case A) it stores the projected source states
  `hs · W_a` into the carried scratch, whole, and then computes the output tile from that scratch; at the other
  tiles (case B) it leaves the scratch as it found it and computes the output tile from what the scratch holds.
  Each buffer is written by ONE store that covers it, so what it holds afterwards is that store's value:
  the projection payload (`k0_pay3`) for the scratch, and the output payload (`k0_pay1` of `k0_pay4`) for the
  output tile — in case A with the freshly stored projection in the scratch's place, in case B with the carried
  contents `xs0`.
-/
import proofs.«178514_j70205535420559_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- Case A leaves the projection payload of the source block and the W_a block in the carried scratch. -/
theorem sout_A (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S1024x1024 .bf16) (harg10 : arg10.IsWhole) (hc0 : cond0_0 i)
    (x0 : Vec F S1x256x1024 .f32) (x1 : Vec F S1x1024x1024 .f32) (x2 : Vec F S1x1x1024 .f32) (x3 : Vec F S1024x1024 .bf16) (x4 : Vec F S1024x1024 .bf16) (x5 : Vec F S1024x1024 .bf16) (x6 : Vec F S1x1024 .f32) :
    sout0_A_0 c i arg2 harg2 arg3 harg3 arg4 harg4 arg5 harg5 arg6 harg6 arg7 harg7 arg8 harg8 arg9 harg9 arg10 harg10 hc0 x0 x1 x2 x3 x4 x5 x6 = k0_pay3 x1 x3 := by
  -- the scratch's one piece is the covering store of the projection payload; its loads read the whole blocks
  have hz2 : (![0, 0] : Fin 2 → Nat) = fun _ => 0 := funext fun a => by fin_cases a <;> rfl
  have hz3 : (![0, 0, 0] : Fin 3 → Nat) = fun _ => 0 := funext fun a => by fin_cases a <;> rfl
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero hz2]
  simp only [View.readAt_eq_ld, harg3.read_unread, harg5.read_unread,
    View.ld_unit_zero (S := S1x1024x1024) hz3, View.ld_unit_zero (S := S1024x1024) hz2]

/-- Case A leaves in the output tile the output payload computed from the freshly stored projection. -/
theorem out_A (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S1024x1024 .bf16) (harg10 : arg10.IsWhole) (hc0 : cond0_0 i)
    (x0 : Vec F S1x256x1024 .f32) (x1 : Vec F S1x1024x1024 .f32) (x2 : Vec F S1x1x1024 .f32) (x3 : Vec F S1024x1024 .bf16) (x4 : Vec F S1024x1024 .bf16) (x5 : Vec F S1024x1024 .bf16) (x6 : Vec F S1x1024 .f32) :
    out0_A_7 c i arg2 harg2 arg3 harg3 arg4 harg4 arg5 harg5 arg6 harg6 arg7 harg7 arg8 harg8 arg9 harg9 arg10 harg10 hc0 x0 x1 x2 x3 x4 x5 x6 = k0_pay1 (k0_pay4 x1 x0 (k0_pay3 x1 x3) x2 x4 x5) x6 := by
  -- the output's one piece is the covering store of the output payload; the scratch load after the covering
  -- store of the projection reads that store's value, the other loads read the whole blocks
  have hz2 : (![0, 0] : Fin 2 → Nat) = fun _ => 0 := funext fun a => by fin_cases a <;> rfl
  have hz3 : (![0, 0, 0] : Fin 3 → Nat) = fun _ => 0 := funext fun a => by fin_cases a <;> rfl
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero (S := S1x256x1024) hz3, View.readCov_unit_zero (S := S1024x1024) _ hz2]
  simp only [View.readAt_eq_ld, harg2.read_unread, harg3.read_unread, harg4.read_unread, harg5.read_unread,
    harg6.read_unread, harg7.read_unread, harg8.read_unread,
    View.ld_unit_zero (S := S1x1024x1024) hz3, View.ld_unit_zero (S := S1x256x1024) hz3,
    View.ld_unit_zero (S := S1x1x1024) hz3, View.ld_unit_zero (S := S1024x1024) hz2,
    View.ld_unit_zero (S := S1x1024) hz2]

/-- Case B leaves in the output tile the output payload computed from the carried scratch contents `xs0`. -/
theorem out_B (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S1024x1024 .bf16) (harg10 : arg10.IsWhole) (hc0 : ¬cond0_0 i)
    (x0 : Vec F S1x256x1024 .f32) (x1 : Vec F S1x1024x1024 .f32) (x2 : Vec F S1x1x1024 .f32) (x3 : Vec F S1024x1024 .bf16) (x4 : Vec F S1024x1024 .bf16) (x5 : Vec F S1024x1024 .bf16) (x6 : Vec F S1x1024 .f32) (xs0 : Vec F S1024x1024 .bf16) :
    out0_B_7 c i arg2 harg2 arg3 harg3 arg4 harg4 arg5 harg5 arg6 harg6 arg7 harg7 arg8 harg8 arg9 harg9 arg10 harg10 hc0 x0 x1 x2 x3 x4 x5 x6 xs0 = k0_pay1 (k0_pay4 x1 x0 xs0 x2 x4 x5) x6 := by
  -- the output's one piece is the covering store of the output payload; every load reads a whole block,
  -- the scratch load the carried contents
  have hz2 : (![0, 0] : Fin 2 → Nat) = fun _ => 0 := funext fun a => by fin_cases a <;> rfl
  have hz3 : (![0, 0, 0] : Fin 3 → Nat) = fun _ => 0 := funext fun a => by fin_cases a <;> rfl
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 x6 xs0)]
  unfold kernelRun0_B
  dsimp only
  sl_unfold_words
  rw [View.canon_unit_zero (S := S1x256x1024) hz3]
  simp only [View.readAt_eq_ld, harg2.read_unread, harg3.read_unread, harg4.read_unread, harg10.read_unread,
    harg6.read_unread, harg7.read_unread, harg8.read_unread,
    View.ld_unit_zero (S := S1x1024x1024) hz3, View.ld_unit_zero (S := S1x256x1024) hz3,
    View.ld_unit_zero (S := S1x1x1024) hz3, View.ld_unit_zero (S := S1024x1024) hz2,
    View.ld_unit_zero (S := S1x1024) hz2]

end Cert.KernelIdeal.Pieces

end
-- ==== Proof.Spec.lean ====
/-
  The attention layer both programs compute, as functions on the extended reals.

  For ONE batch element, with a target row `q` (a row of ht, length 1024), the source states `hs`
  (1024 rows of length 1024), their projection `pr` (row `s` of `hs · W_a`), a mask `mk` over the source
  positions, the two halves `wtop`, `wbot` of the output weights and the bias:

      score_s = ⟨q, pr_s⟩                              (a sum over the 1024 features)
      w_s     = exp (score_s − max_s' score_s') · mk_s   (the maximum taken from −∞)
      a_s     = w_s / Σ_s' w_s'                         (the extended reals' quotient, whatever the divisor)
      ctx_h   = Σ_s a_s · hs_(s,h)
      out_o   = tanh ((Σ_k ctx_k · wtop_(k,o) + Σ_k q_k · wbot_(k,o)) + bias_o).

  Every operation is the extended reals' own (PureOps/Ideal.lean); nothing here asks the entries to be finite.
  `outAt` states the layer of the argument ARRAYS at a batch `b`, a target position `t` and an output feature `o`.
  The one algebraic law of the certificate is at the end: a sum over 2048 indices is the sum over the first 1024
  plus the sum over the last 1024 (addition on the extended reals is commutative and associative; no finiteness).
-/
import Idealize.ShloMosaic.PureOps.Ideal
import Idealize.ShloMosaic.Lib.ValueIdx

noncomputable section

open scoped BigOperators

namespace Cert.Spec

open Idealize.ShloMosaic Idealize.ShloMosaic.ValueIdx

/-- A 1024 × 1024 table of extended reals, by row and column. -/
abbrev Mat : Type := Fin 1024 → Fin 1024 → EReal
/-- A row of 1024 extended reals. -/
abbrev Row : Type := Fin 1024 → EReal

/-- Row `s` of the projected source states `hs · W_a`, at feature `k`. -/
def proj (hs wa : Mat) : Mat := fun s k => ∑ h : Fin 1024, hs s h * wa h k

/-- The score of the target row `q` against each projected source row. -/
def score (q : Row) (pr : Mat) : Row := fun s => ∑ h : Fin 1024, q h * pr s h

/-- The largest score, the maximum taken from −∞ (the f32 word `0xFF800000`). -/
def peak (q : Row) (pr : Mat) : EReal :=
  (Finset.univ : Finset (Fin 1024)).fold max (Ideal.ofBits .f32 0xFF800000#32) (score q pr)

/-- The masked exponential weight of source position `s`. -/
def weight (q : Row) (pr : Mat) (mk : Row) : Row := fun s => Ideal.exp (score q pr s - peak q pr) * mk s

/-- The sum of the weights over the source positions. -/
def total (q : Row) (pr : Mat) (mk : Row) : EReal := ∑ s : Fin 1024, weight q pr mk s

/-- The attention given to source position `s`. -/
def attn (q : Row) (pr : Mat) (mk : Row) : Row := fun s => Ideal.div (weight q pr mk s) (total q pr mk)

/-- The context vector: the attention-weighted sum of the source states. -/
def ctx (q : Row) (pr : Mat) (mk : Row) (hs : Mat) : Row := fun h => ∑ s : Fin 1024, attn q pr mk s * hs s h

/-- The output row: `tanh` of the context through the top half of the weights plus the target row through the bottom
    half, plus the bias. -/
def row (q : Row) (hs pr : Mat) (mk : Row) (wtop wbot : Mat) (bias : Row) : Row := fun o =>
  Ideal.tanh ((∑ k : Fin 1024, ctx q pr mk hs k * wtop k o + ∑ k : Fin 1024, q k * wbot k o) + bias o)

/-! ## The layer of the argument arrays -/

/-- The 16 × 1024 × 1024 arrays (ht, hs, the result). -/
abbrev A3 : Type := (⟨3, ![16, 1024, 1024]⟩ : Shape).Idx → EReal
/-- The 1024 × 1024 array W_a. -/
abbrev A2 : Type := (⟨2, ![1024, 1024]⟩ : Shape).Idx → EReal
/-- The 2048 × 1024 array W_c. -/
abbrev AW : Type := (⟨2, ![2048, 1024]⟩ : Shape).Idx → EReal
/-- The bias, 1024 long. -/
abbrev A1 : Type := (⟨1, ![1024]⟩ : Shape).Idx → EReal
/-- The mask, 16 × 1024. -/
abbrev AM : Type := (⟨2, ![16, 1024]⟩ : Shape).Idx → EReal

/-- Batch `b`'s source states as a table. -/
def srcOf (x1 : A3) (b : Fin 16) : Mat := fun s h => x1 (ix3 b s h)
/-- W_a as a table. -/
def waOf (x2 : A2) : Mat := fun h k => x2 (ix2 h k)
/-- The top half of W_c (rows 0 … 1023). -/
def topOf (x3 : AW) : Mat := fun k o => x3 (ix2 (⟨k.val, by omega⟩ : Fin 2048) o)
/-- The bottom half of W_c (rows 1024 … 2047). -/
def botOf (x3 : AW) : Mat := fun k o => x3 (ix2 (⟨1024 + k.val, by omega⟩ : Fin 2048) o)

/-- THE LAYER at batch `b`, target position `t`, output feature `o`, of the arrays ht (`x0`), hs (`x1`), W_a (`x2`),
    W_c (`x3`), b (`x4`) and the mask (`mk`). -/
def outAt (x0 x1 : A3) (x2 : A2) (x3 : AW) (x4 : A1) (mk : AM) (b : Fin 16) (t o : Fin 1024) : EReal :=
  row (fun h => x0 (ix3 b t h)) (srcOf x1 b) (proj (srcOf x1 b) (waOf x2)) (fun s => mk (ix2 b s))
    (topOf x3) (botOf x3) (fun j => x4 (ix1 j)) o

/-- The same as one array. -/
def out (x0 x1 : A3) (x2 : A2) (x3 : AW) (x4 : A1) (mk : AM) : A3 := fun i =>
  outAt x0 x1 x2 x3 x4 mk ⟨(i 0).val, (i 0).isLt⟩ ⟨(i 1).val, (i 1).isLt⟩ ⟨(i 2).val, (i 2).isLt⟩

theorem out_ix3 (x0 x1 : A3) (x2 : A2) (x3 : AW) (x4 : A1) (mk : AM) (b : Fin 16) (t o : Fin 1024) :
    out x0 x1 x2 x3 x4 mk (ix3 b t o) = outAt x0 x1 x2 x3 x4 mk b t o := rfl

/-! ## The law: a sum over 2048 indices in two halves -/

/-- A sum over `Fin 2048` is the sum over its first 1024 indices plus the sum over its last 1024. -/
theorem sum_halves (f : Fin 2048 → EReal) :
    ∑ k : Fin 2048, f k
      = ∑ k : Fin 1024, f ⟨k.val, by omega⟩ + ∑ k : Fin 1024, f ⟨1024 + k.val, by omega⟩ := by
  exact Fin.sum_univ_add (a := 1024) (b := 1024) (fun k : Fin (1024 + 1024) => f k)

end Cert.Spec

end
-- ==== Proof.PayProj.lean ====
/-
  The projection payload read at an index, on the extended reals.

  `k0_pay3` is the projection `hs_b · W_a` of the source block: a matrix product into the zero matrix, so at row `s`
  and feature `k` the plain sum over the contracted feature `h` of `hs_b (s, h) · W_a (h, k)`. The changes of float
  format around it are the identity on the extended reals, and the leading unit axis of the source block is dropped.
-/
import proofs.«178514_j70205535420559_2_alg».proof.Proof.Gen.KernelIdeal.Skeleton
import proofs.«178514_j70205535420559_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The projection's dimension numbers: the left operand contracts its axis 1, the right its axis 0. -/
abbrev projDims : DotDims S1024x1024 S1024x1024 S1024x1024 := dot_S1024x1024_S1024x1024_S1024x1024_1_0_0_1_n_n

theorem projDims_lhs_0 (i : S1024x1024.Idx) (q : projDims.contr.Idx) : (projDims.lhsIdx i q 0).val = (i 0).val := by
  unfold DotDims.lhsIdx
  rw [dif_neg (show ¬(0 : Fin S1024x1024.rank) ∈ projDims.lhsBatch by decide), dif_pos (show (0 : Fin S1024x1024.rank) ∈ projDims.lhsNonContracting by decide)]
  rfl

theorem projDims_lhs_1 (i : S1024x1024.Idx) (q : projDims.contr.Idx) : (projDims.lhsIdx i q 1).val = (q ⟨0, by decide⟩).val :=
  projDims.lhsIdx_val_of_single rfl i q

theorem projDims_rhs_0 (i : S1024x1024.Idx) (q : projDims.contr.Idx) : (projDims.rhsIdx i q 0).val = (q ⟨0, by decide⟩).val :=
  projDims.rhsIdx_val_of_single rfl i q

theorem projDims_rhs_1 (i : S1024x1024.Idx) (q : projDims.contr.Idx) : (projDims.rhsIdx i q 1).val = (i 1).val := by
  unfold DotDims.rhsIdx
  rw [dif_neg (show ¬(1 : Fin S1024x1024.rank) ∈ projDims.rhsBatch by decide), dif_pos (show (1 : Fin S1024x1024.rank) ∈ projDims.rhsNonContracting by decide)]
  rfl

/-- A matrix product into the zero matrix with these dimension numbers, at row `s` and column `k`: the sum over the
    contracted index `h` of the left operand at `(s, h)` times the right at `(h, k)`. -/
theorem proj_matmul_apply (a b : FVec Ideal S1024x1024 .bf16) (s k : Fin 1024) :
    FloatOps.matmul (F := Ideal) projDims none a b (constant S1024x1024 .f32 0x00000000#32) (ix2 s k)
      = ∑ h : Fin 1024, a (ix2 s h) * b (ix2 h k) := by
  refine (Ideal.matmul_constant_zero_apply projDims none a b (ix2 s k)).trans ?_
  rw [← Equiv.sum_comp (contrEquiv1 projDims 1024 rfl rfl).symm]
  refine Finset.sum_congr rfl fun h _ => ?_
  have hk := contrEquiv1_symm_val projDims 1024 rfl rfl h
  have el : projDims.lhsIdx (ix2 s k) ((contrEquiv1 projDims 1024 rfl rfl).symm h) = ix2 s h := funext fun a => Fin.ext (by
    match a with
    | ⟨0, _⟩ => exact projDims_lhs_0 _ _
    | ⟨1, _⟩ => exact (projDims_lhs_1 _ _).trans hk)
  have er : projDims.rhsIdx (ix2 s k) ((contrEquiv1 projDims 1024 rfl rfl).symm h) = ix2 h k := funext fun a => Fin.ext (by
    match a with
    | ⟨0, _⟩ => exact (projDims_rhs_0 _ _).trans hk
    | ⟨1, _⟩ => exact projDims_rhs_1 _ _)
  rw [el, er]

/-- The source block with its unit axis dropped and its format narrowed, at `(s, h)`. -/
theorem proj_pay2_apply (x1 : Vec Ideal S1x1024x1024 .f32) (s h : Fin 1024) :
    k0_pay2 (F := Ideal) x1 (ix2 s h) = x1 (ix3 (0 : Fin 1) s h) := by
  unfold k0_pay2
  exact shapeCast_1ab_ab_apply x1 shapeCasts_S1x1024x1024_S1024x1024 s h

/-- The projection payload at row `s`, feature `k`: the source block's row `s` against column `k` of the W_a block. -/
theorem pay3_apply (x1 : Vec Ideal S1x1024x1024 .f32) (x3 : Vec Ideal S1024x1024 .bf16) (s k : Fin 1024) :
    k0_pay3 (F := Ideal) x1 x3 (ix2 s k)
      = Cert.Spec.proj (fun s h => x1 (ix3 (0 : Fin 1) s h)) (fun h k => x3 (ix2 h k)) s k := by
  unfold k0_pay3 Cert.Spec.proj
  rw [shapeCast_self, shapeCast_self]
  refine (proj_matmul_apply (k0_pay2 (F := Ideal) x1) x3 s k).trans ?_
  exact Finset.sum_congr rfl fun h _ => congrArg (· * x3 (ix2 h k)) (proj_pay2_apply x1 s h)

end Cert.KernelIdeal.Payload

end
-- ==== Proof.PayOut.lean ====
/-
  The output payload read at an index, on the extended reals.

  `k0_pay1 (k0_pay4 …)` is the output tile: the scores of the target tile's rows against the projected source rows
  held in the scratch (a matrix product contracting the feature axis of both), their row maximum (taken from −∞)
  subtracted, the exponential times the mask row, the quotient by the row sum, the context (the attention against the
  source block) through the top weights plus the target rows through the bottom weights, the bias row, `tanh`.
  Row `p` of it is `Spec.row` of row `p` of the target tile. Changes of float format are the identity, matrix products
  into the zero matrix are plain sums, and the keepdims column [256] → [256,1] → [256,1024] reads the row's value.
-/
import proofs.«178514_j70205535420559_2_alg».proof.Proof.Gen.KernelIdeal.Skeleton
import proofs.«178514_j70205535420559_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The product contracting axis 1 of both operands. -/
abbrev outD11 : DotDims S256x1024 S1024x1024 S256x1024 := dot_S256x1024_S1024x1024_S256x1024_1_1_0_0_n_n
/-- The product contracting axis 1 of the left operand and axis 0 of the right. -/
abbrev outD10 : DotDims S256x1024 S1024x1024 S256x1024 := dot_S256x1024_S1024x1024_S256x1024_1_0_0_1_n_n

/-! ## The operand indices of the two products, by coordinate -/

theorem outD11_lhs0 (i : S256x1024.Idx) (q : outD11.contr.Idx) : (outD11.lhsIdx i q 0).val = (i 0).val := by
  unfold DotDims.lhsIdx
  rw [dif_neg (show ¬(0 : Fin S256x1024.rank) ∈ outD11.lhsBatch by decide), dif_pos (show (0 : Fin S256x1024.rank) ∈ outD11.lhsNonContracting by decide)]
  rfl
theorem outD11_lhs1 (i : S256x1024.Idx) (q : outD11.contr.Idx) : (outD11.lhsIdx i q 1).val = (q ⟨0, by decide⟩).val :=
  outD11.lhsIdx_val_of_single rfl i q
theorem outD11_rhs0 (i : S256x1024.Idx) (q : outD11.contr.Idx) : (outD11.rhsIdx i q 0).val = (i 1).val := by
  unfold DotDims.rhsIdx
  rw [dif_neg (show ¬(0 : Fin S1024x1024.rank) ∈ outD11.rhsBatch by decide), dif_pos (show (0 : Fin S1024x1024.rank) ∈ outD11.rhsNonContracting by decide)]
  rfl
theorem outD11_rhs1 (i : S256x1024.Idx) (q : outD11.contr.Idx) : (outD11.rhsIdx i q 1).val = (q ⟨0, by decide⟩).val :=
  outD11.rhsIdx_val_of_single rfl i q

/-- The product contracting axis 1 of both operands, into the zero matrix: at (p, s) the sum over h of a (p, h) · b (s, h). -/
theorem out_mm11_apply (a : FVec Ideal S256x1024 .bf16) (b : FVec Ideal S1024x1024 .bf16) (p : Fin 256) (s : Fin 1024) :
    matmul (F := Ideal) outD11 none a b (constant S256x1024 .f32 0x00000000#32) (ix2 p s)
      = ∑ h : Fin 1024, a (ix2 p h) * b (ix2 s h) := by
  simp only [matmul]
  rw [Ideal.matmul_constant_zero_apply, ← Equiv.sum_comp (contrEquiv1 outD11 1024 rfl rfl).symm]
  refine Finset.sum_congr rfl fun k _ => ?_
  have hk := contrEquiv1_symm_val outD11 1024 rfl rfl k
  have el : outD11.lhsIdx (ix2 p s) ((contrEquiv1 outD11 1024 rfl rfl).symm k) = ix2 p k := funext fun c => Fin.ext (by
    match c with
    | ⟨0, _⟩ => exact outD11_lhs0 _ _
    | ⟨1, _⟩ => exact (outD11_lhs1 _ _).trans hk)
  have er : outD11.rhsIdx (ix2 p s) ((contrEquiv1 outD11 1024 rfl rfl).symm k) = ix2 s k := funext fun c => Fin.ext (by
    match c with
    | ⟨0, _⟩ => exact outD11_rhs0 _ _
    | ⟨1, _⟩ => exact (outD11_rhs1 _ _).trans hk)
  rw [el, er]

theorem outD10_lhs0 (i : S256x1024.Idx) (q : outD10.contr.Idx) : (outD10.lhsIdx i q 0).val = (i 0).val := by
  unfold DotDims.lhsIdx
  rw [dif_neg (show ¬(0 : Fin S256x1024.rank) ∈ outD10.lhsBatch by decide), dif_pos (show (0 : Fin S256x1024.rank) ∈ outD10.lhsNonContracting by decide)]
  rfl
theorem outD10_lhs1 (i : S256x1024.Idx) (q : outD10.contr.Idx) : (outD10.lhsIdx i q 1).val = (q ⟨0, by decide⟩).val :=
  outD10.lhsIdx_val_of_single rfl i q
theorem outD10_rhs0 (i : S256x1024.Idx) (q : outD10.contr.Idx) : (outD10.rhsIdx i q 0).val = (q ⟨0, by decide⟩).val :=
  outD10.rhsIdx_val_of_single rfl i q
theorem outD10_rhs1 (i : S256x1024.Idx) (q : outD10.contr.Idx) : (outD10.rhsIdx i q 1).val = (i 1).val := by
  unfold DotDims.rhsIdx
  rw [dif_neg (show ¬(1 : Fin S1024x1024.rank) ∈ outD10.rhsBatch by decide), dif_pos (show (1 : Fin S1024x1024.rank) ∈ outD10.rhsNonContracting by decide)]
  rfl

/-- The product contracting axis 1 of the left operand with axis 0 of the right, into the zero matrix: at (p, o) the sum
    over k of a (p, k) · b (k, o). -/
theorem out_mm10_apply (a : FVec Ideal S256x1024 .bf16) (b : FVec Ideal S1024x1024 .bf16) (p : Fin 256) (o : Fin 1024) :
    matmul (F := Ideal) outD10 none a b (constant S256x1024 .f32 0x00000000#32) (ix2 p o)
      = ∑ k : Fin 1024, a (ix2 p k) * b (ix2 k o) := by
  simp only [matmul]
  rw [Ideal.matmul_constant_zero_apply, ← Equiv.sum_comp (contrEquiv1 outD10 1024 rfl rfl).symm]
  refine Finset.sum_congr rfl fun k _ => ?_
  have hk := contrEquiv1_symm_val outD10 1024 rfl rfl k
  have el : outD10.lhsIdx (ix2 p o) ((contrEquiv1 outD10 1024 rfl rfl).symm k) = ix2 p k := funext fun c => Fin.ext (by
    match c with
    | ⟨0, _⟩ => exact outD10_lhs0 _ _
    | ⟨1, _⟩ => exact (outD10_lhs1 _ _).trans hk)
  have er : outD10.rhsIdx (ix2 p o) ((contrEquiv1 outD10 1024 rfl rfl).symm k) = ix2 k o := funext fun c => Fin.ext (by
    match c with
    | ⟨0, _⟩ => exact (outD10_rhs0 _ _).trans hk
    | ⟨1, _⟩ => exact outD10_rhs1 _ _)
  rw [el, er]

/-- A [256] vector made a column [256,1] and spread over [256,1024] reads, at (p, s), the vector at p. -/
theorem out_col_apply {α : Type} (v : S256.Idx → α) (p : Fin 256) (s : Fin 1024) :
    broadcastTo S256x1024 (shapeCast S256x1 v shapeCasts_S256_S256x1) broadcasts_S256x1_S256x1024 (ix2 p s) = v (ix1 p) := by
  refine (broadcastTo_apply _ broadcasts_S256x1_S256x1024 (ix2 p s) (ix2 p (0 : Fin 1)) fun ax => ?_).trans ?_
  · match ax with
    | ⟨0, _⟩ => rfl
    | ⟨1, _⟩ => rfl
  · refine shapeCast_apply v shapeCasts_S256_S256x1 (ix2 p (0 : Fin 1)) (ix1 p) ?_
    rw [Shape.rowMajor_val_two, Shape.rowMajor_val_one]
    show p.val = p.val * 1 + 0
    omega

/-- The row maximum from −∞ over axis 1, read at row p. -/
theorem out_max_apply (src : FVec Ideal S256x1024 .f32) (hφ : FKind.Formats .f32)
    (hacc : (0xFF800000#32 : BitVec (FTy.bits .f32)) = FKind.maximumf.neutral .f32 hφ) (p : Fin 256) :
    multiReduction (F := Ideal) .maximumf [1] S256 src 0xFF800000#32 reduces_S256x1024_S256 hφ hacc (ix1 p)
      = (Finset.univ : Finset (Fin 1024)).fold max (Ideal.ofBits .f32 0xFF800000#32) (fun s => src (ix2 p s)) := by
  refine (Ideal.multiReduction_maximumf_single src _ reduces_S256x1024_S256 hφ hacc (ix1 p)).trans ?_
  refine Finset.fold_congr fun s _ => ?_
  show src _ = src _
  refine congrArg src (funext fun c => Fin.ext ?_)
  match c with
  | ⟨0, _⟩ => rfl
  | ⟨1, _⟩ => rfl

/-- The row sum over axis 1, read at row p. -/
theorem out_sum_apply (src : FVec Ideal S256x1024 .f32) (hφ : FKind.Formats .f32)
    (hacc : (0x00000000#32 : BitVec (FTy.bits .f32)) = FKind.add.neutral .f32 hφ) (p : Fin 256) :
    multiReduction (F := Ideal) .add [1] S256 src 0x00000000#32 reduces_S256x1024_S256 hφ hacc (ix1 p)
      = ∑ s : Fin 1024, src (ix2 p s) := by
  refine (Ideal.multiReduction_add_single src _ reduces_S256x1024_S256 hφ hacc (ix1 p)).trans ?_
  refine Finset.sum_congr rfl fun s _ => ?_
  refine congrArg src (funext fun c => Fin.ext ?_)
  match c with
  | ⟨0, _⟩ => rfl
  | ⟨1, _⟩ => rfl

/-- The target tile cast to [256,1024] and narrowed reads, at (p, h), the tile at (0, p, h). -/
theorem out_tq_apply (x0 : Vec Ideal S1x256x1024 .f32) (p : Fin 256) (h : Fin 1024) :
    (truncf (F := Ideal) .bf16 (shapeCast S256x1024 x0 shapeCasts_S1x256x1024_S256x1024) bitsLt_bf16_f32) (ix2 p h)
      = x0 (ix3 (0 : Fin 1) p h) :=
  shapeCast_1ab_ab_apply x0 shapeCasts_S1x256x1024_S256x1024 p h

/-- The scores: row p of the product of the tile with the scratch, contracting the feature axis of both. -/
theorem out_score (x0 : Vec Ideal S1x256x1024 .f32) (xs : Vec Ideal S1024x1024 .bf16) (p : Fin 256) (s : Fin 1024) :
    matmul (F := Ideal) (φ₂ := .bf16) outD11 none (truncf .bf16 (shapeCast S256x1024 x0 shapeCasts_S1x256x1024_S256x1024) bitsLt_bf16_f32) xs
        (constant S256x1024 .f32 0x00000000#32) (ix2 p s)
      = Cert.Spec.score (fun h => x0 (ix3 (0 : Fin 1) p h)) (fun s h => xs (ix2 s h)) s := by
  refine (out_mm11_apply _ xs p s).trans ?_
  unfold Cert.Spec.score
  refine Finset.sum_congr rfl fun h _ => ?_
  exact congrArg (· * xs (ix2 s h)) (out_tq_apply x0 p h)

/-- The weights: the exponential of the score less the row maximum, times the mask row. -/
theorem out_weight (v12 : FVec Ideal S256x1024 .f32) (x2 : Vec Ideal S1x1x1024 .f32) (hφ : FKind.Formats .f32)
    (hacc : (0xFF800000#32 : BitVec (FTy.bits .f32)) = FKind.maximumf.neutral .f32 hφ) (p : Fin 256)
    (q : Cert.Spec.Row) (pr : Cert.Spec.Mat) (h12 : ∀ s, v12 (ix2 p s) = Cert.Spec.score q pr s) (s : Fin 1024) :
    mulf (F := Ideal)
        (exp (subf v12 (broadcastTo S256x1024 (shapeCast S256x1
          (multiReduction .maximumf [1] S256 v12 0xFF800000#32 reduces_S256x1024_S256 hφ hacc) shapeCasts_S256_S256x1)
          broadcasts_S256x1_S256x1024)))
        (broadcastTo S256x1024 (shapeCast S1x1024 x2 shapeCasts_S1x1x1024_S1x1024) broadcasts_S1x1024_S256x1024) (ix2 p s)
      = Cert.Spec.weight q pr (fun s => x2 (ix3 (0 : Fin 1) (0 : Fin 1) s)) s := by
  have hpk : multiReduction (F := Ideal) .maximumf [1] S256 v12 0xFF800000#32 reduces_S256x1024_S256 hφ hacc (ix1 p)
      = Cert.Spec.peak q pr := by
    refine (out_max_apply v12 hφ hacc p).trans ?_
    unfold Cert.Spec.peak
    exact Finset.fold_congr fun s _ => h12 s
  have hmk : broadcastTo S256x1024 (shapeCast S1x1024 x2 shapeCasts_S1x1x1024_S1x1024) broadcasts_S1x1024_S256x1024 (ix2 p s)
      = x2 (ix3 (0 : Fin 1) (0 : Fin 1) s) :=
    (broadcastTo_1b_ab_apply _ broadcasts_S1x1024_S256x1024 p s).trans
      (shapeCast_1ab_ab_apply x2 shapeCasts_S1x1x1024_S1x1024 (0 : Fin 1) s)
  show Ideal.exp (v12 (ix2 p s) - broadcastTo S256x1024 (shapeCast S256x1
          (multiReduction (F := Ideal) .maximumf [1] S256 v12 0xFF800000#32 reduces_S256x1024_S256 hφ hacc) shapeCasts_S256_S256x1)
          broadcasts_S256x1_S256x1024 (ix2 p s))
        * broadcastTo S256x1024 (shapeCast S1x1024 x2 shapeCasts_S1x1x1024_S1x1024) broadcasts_S1x1024_S256x1024 (ix2 p s) = _
  rw [out_col_apply, hpk, hmk, h12 s]
  rfl

/-- The attention: the weight over the row's total. -/
theorem out_attn (v19 : FVec Ideal S256x1024 .f32) (hφ : FKind.Formats .f32)
    (hacc : (0x00000000#32 : BitVec (FTy.bits .f32)) = FKind.add.neutral .f32 hφ) (p : Fin 256)
    (q : Cert.Spec.Row) (pr : Cert.Spec.Mat) (mk : Cert.Spec.Row)
    (h19 : ∀ s, v19 (ix2 p s) = Cert.Spec.weight q pr mk s) (s : Fin 1024) :
    divf (F := Ideal) v19 (broadcastTo S256x1024 (shapeCast S256x1
          (multiReduction .add [1] S256 v19 0x00000000#32 reduces_S256x1024_S256 hφ hacc) shapeCasts_S256_S256x1)
          broadcasts_S256x1_S256x1024) (ix2 p s)
      = Cert.Spec.attn q pr mk s := by
  have htot : multiReduction (F := Ideal) .add [1] S256 v19 0x00000000#32 reduces_S256x1024_S256 hφ hacc (ix1 p)
      = Cert.Spec.total q pr mk := by
    refine (out_sum_apply v19 hφ hacc p).trans ?_
    unfold Cert.Spec.total
    exact Finset.sum_congr rfl fun s _ => h19 s
  show Ideal.div (v19 (ix2 p s)) (broadcastTo S256x1024 (shapeCast S256x1
          (multiReduction (F := Ideal) .add [1] S256 v19 0x00000000#32 reduces_S256x1024_S256 hφ hacc) shapeCasts_S256_S256x1)
          broadcasts_S256x1_S256x1024 (ix2 p s)) = _
  rw [out_col_apply, htot, h19 s]
  rfl

/-- The source block cast to [1024,1024] and narrowed reads, at (s, h), the block at (0, s, h). -/
theorem out_pay2_apply (x1 : Vec Ideal S1x1024x1024 .f32) (s h : Fin 1024) :
    k0_pay2 (F := Ideal) x1 (ix2 s h) = x1 (ix3 (0 : Fin 1) s h) :=
  shapeCast_1ab_ab_apply x1 shapeCasts_S1x1024x1024_S1024x1024 s h

/-- The context: the attention row against the source block. -/
theorem out_ctx (v23 : FVec Ideal S256x1024 .f32) (x1 : Vec Ideal S1x1024x1024 .f32) (p : Fin 256)
    (q : Cert.Spec.Row) (pr : Cert.Spec.Mat) (mk : Cert.Spec.Row)
    (h23 : ∀ s, v23 (ix2 p s) = Cert.Spec.attn q pr mk s) (h : Fin 1024) :
    matmul (F := Ideal) outD10 none (truncf .bf16 v23 bitsLt_bf16_f32) (k0_pay2 x1) (constant S256x1024 .f32 0x00000000#32) (ix2 p h)
      = Cert.Spec.ctx q pr mk (fun s h => x1 (ix3 (0 : Fin 1) s h)) h := by
  refine (out_mm10_apply _ _ p h).trans ?_
  unfold Cert.Spec.ctx
  refine Finset.sum_congr rfl fun s _ => ?_
  show v23 (ix2 p s) * k0_pay2 (F := Ideal) x1 (ix2 s h) = _
  rw [h23 s, out_pay2_apply]

/-- The two products into the output features, summed. -/
theorem out_pre (v25 : FVec Ideal S256x1024 .f32) (v8 : FVec Ideal S256x1024 .bf16) (x4 x5 : Vec Ideal S1024x1024 .bf16)
    (p : Fin 256) (c t : Cert.Spec.Row) (h25 : ∀ k, v25 (ix2 p k) = c k) (h8 : ∀ k, v8 (ix2 p k) = t k) (o : Fin 1024) :
    addf (F := Ideal)
        (matmul outD10 none (truncf .bf16 v25 bitsLt_bf16_f32) (shapeCast (α := Ideal .bf16) S1024x1024 x4 shapeCasts_S1024x1024_S1024x1024)
          (constant S256x1024 .f32 0x00000000#32))
        (matmul outD10 none v8 (shapeCast (α := Ideal .bf16) S1024x1024 x5 shapeCasts_S1024x1024_S1024x1024)
          (constant S256x1024 .f32 0x00000000#32)) (ix2 p o)
      = ∑ k : Fin 1024, c k * x4 (ix2 k o) + ∑ k : Fin 1024, t k * x5 (ix2 k o) := by
  show matmul (F := Ideal) outD10 none (truncf .bf16 v25 bitsLt_bf16_f32) (shapeCast (α := Ideal .bf16) S1024x1024 x4 shapeCasts_S1024x1024_S1024x1024)
          (constant S256x1024 .f32 0x00000000#32) (ix2 p o)
      + matmul (F := Ideal) outD10 none v8 (shapeCast (α := Ideal .bf16) S1024x1024 x5 shapeCasts_S1024x1024_S1024x1024)
          (constant S256x1024 .f32 0x00000000#32) (ix2 p o) = _
  rw [out_mm10_apply, out_mm10_apply, shapeCast_self, shapeCast_self]
  refine congrArg₂ (· + ·) (Finset.sum_congr rfl fun k _ => ?_) (Finset.sum_congr rfl fun k _ => ?_)
  · exact congrArg (· * x4 (ix2 k o)) (h25 k)
  · exact congrArg (· * x5 (ix2 k o)) (h8 k)

/-- The output tile from the summed products and the bias block: the bias row added, tanh, a unit axis put in front. -/
theorem out_final (v33 : FVec Ideal S256x1024 .f32) (x6 : Vec Ideal S1x1024 .f32) (p : Fin 256) (o : Fin 1024) :
    k0_pay1 (F := Ideal) v33 x6 (ix3 (0 : Fin 1) p o) = Ideal.tanh (v33 (ix2 p o) + x6 (ix2 (0 : Fin 1) o)) := by
  unfold k0_pay1
  refine (shapeCast_ab_1ab_apply _ shapeCasts_S256x1024_S1x256x1024 (0 : Fin 1) p o).trans ?_
  show Ideal.tanh (v33 (ix2 p o) + broadcastTo S256x1024 (shapeCast S1x1024 x6 shapeCasts_S1x1024_S1x1024) broadcasts_S1x1024_S256x1024 (ix2 p o)) = _
  rw [broadcastTo_1b_ab_apply, shapeCast_self]

/-- The output payload at row `p` of the tile, feature `o`: the layer's row of the tile's row `p`, the source block,
    the scratch contents `xs` as the projected source rows, the mask block's row, the two weight blocks and the bias block. -/
theorem pay1_apply (x0 : Vec Ideal S1x256x1024 .f32) (x1 : Vec Ideal S1x1024x1024 .f32) (x2 : Vec Ideal S1x1x1024 .f32)
    (xs x4 x5 : Vec Ideal S1024x1024 .bf16) (x6 : Vec Ideal S1x1024 .f32) (p : Fin 256) (o : Fin 1024) :
    k0_pay1 (F := Ideal) (k0_pay4 x1 x0 xs x2 x4 x5) x6 (ix3 (0 : Fin 1) p o)
      = Cert.Spec.row (fun h => x0 (ix3 (0 : Fin 1) p h)) (fun s h => x1 (ix3 (0 : Fin 1) s h)) (fun s h => xs (ix2 s h))
          (fun s => x2 (ix3 (0 : Fin 1) (0 : Fin 1) s)) (fun k o => x4 (ix2 k o)) (fun k o => x5 (ix2 k o))
          (fun j => x6 (ix2 (0 : Fin 1) j)) o := by
  refine (out_final _ x6 p o).trans ?_
  unfold Cert.Spec.row
  refine congrArg (fun t => Ideal.tanh (t + x6 (ix2 (0 : Fin 1) o))) ?_
  unfold k0_pay4
  exact out_pre _ _ x4 x5 p _ _
    (fun k => out_ctx _ x1 p _ _ _
      (fun s => out_attn _ _ _ p _ _ _
        (fun s => out_weight _ x2 _ _ p _ _ (fun s => out_score x0 xs p s) s) s) k)
    (fun k => out_tq_apply x0 p k) o

end Cert.KernelIdeal.Payload

end
-- ==== Proof.KValue.lean ====
/-
  What the kernel's result array ends holding: the layer of the argument arrays.

  The grid's 64 points run batch by batch, four target tiles per batch. The body's carried scratch is written, whole,
  at the first tile of a batch with the projected source states `hs_b · W_a` of that batch, and is left alone at the
  other three; so after EVERY point `t` it holds the projection of batch `t / 4` — by induction on the point: a point
  that does not store is preceded by a point of the same batch. The output tile of a point is the output payload of
  the point's blocks over that scratch, and the payload's row `p` is the layer's row for target position
  `256 · (t % 4) + p` of batch `t / 4` (the blocks read where their index maps say). Each point writes its tile back to
  block `(t / 4, t % 4)` of the result array; the 64 blocks cover it; so the array ends at the layer, index by index.
-/
import proofs.«178514_j70205535420559_2_alg».proof.Proof.Blocks
import proofs.«178514_j70205535420559_2_alg».proof.Proof.Pieces
import proofs.«178514_j70205535420559_2_alg».proof.Proof.PayProj
import proofs.«178514_j70205535420559_2_alg».proof.Proof.PayOut
import proofs.«178514_j70205535420559_2_alg».proof.Proof.Spec
import proofs.«178514_j70205535420559_2_alg».proof.Proof.Gen.KernelIdeal.Value

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## Congruences of the layer's functions in their table arguments -/

theorem proj_congr {hs hs' wa wa' : Cert.Spec.Mat} (h1 : ∀ s h, hs s h = hs' s h) (h2 : ∀ h k, wa h k = wa' h k) (s k : Fin 1024) :
    Cert.Spec.proj hs wa s k = Cert.Spec.proj hs' wa' s k := by
  obtain rfl : hs = hs' := funext fun s => funext fun h => h1 s h
  obtain rfl : wa = wa' := funext fun h => funext fun k => h2 h k
  rfl

theorem row_congr {q q' : Cert.Spec.Row} {hs hs' pr pr' : Cert.Spec.Mat} {mk mk' : Cert.Spec.Row} {wt wt' wb wb' : Cert.Spec.Mat}
    {bi bi' : Cert.Spec.Row} (h1 : ∀ h, q h = q' h) (h2 : ∀ s h, hs s h = hs' s h) (h3 : ∀ s h, pr s h = pr' s h)
    (h4 : ∀ s, mk s = mk' s) (h5 : ∀ k o, wt k o = wt' k o) (h6 : ∀ k o, wb k o = wb' k o) (h7 : ∀ j, bi j = bi' j) (o : Fin 1024) :
    Cert.Spec.row q hs pr mk wt wb bi o = Cert.Spec.row q' hs' pr' mk' wt' wb' bi' o := by
  obtain rfl : q = q' := funext h1
  obtain rfl : hs = hs' := funext fun s => funext fun h => h2 s h
  obtain rfl : pr = pr' := funext fun s => funext fun h => h3 s h
  obtain rfl : mk = mk' := funext h4
  obtain rfl : wt = wt' := funext fun k => funext fun o => h5 k o
  obtain rfl : wb = wb' := funext fun k => funext fun o => h6 k o
  obtain rfl : bi = bi' := funext h7
  rfl

/-! ## The carried scratch: after every point of batch `b` it holds the projected source states of batch `b` -/

/-- The projected source states `hs_b · W_a` of batch `b`, as the scratch array. -/
def projArr (c : Dev nD) (b : Fin 16) : Vec Ideal S1024x1024 .bf16 := fun j =>
  Cert.Spec.proj (Cert.Spec.srcOf (m ((c : Thread nD τ).loc main_arg1)) b) (Cert.Spec.waOf (m ((c : Thread nD τ).loc main_arg2)))
    ⟨(j 0).val, (j 0).isLt⟩ ⟨(j 1).val, (j 1).isLt⟩

theorem projArr_ix2 (c : Dev nD) (b : Fin 16) (s k : Fin 1024) :
    projArr m c b (ix2 s k)
      = Cert.Spec.proj (Cert.Spec.srcOf (m ((c : Thread nD τ).loc main_arg1)) b) (Cert.Spec.waOf (m ((c : Thread nD τ).loc main_arg2))) s k := rfl

/-- The projection payload of a point's source block and W_a block is the projection of the point's batch. -/
theorem pay3_blocks (c : Dev nD) (t : Fin cfg0.N) (b : Fin 16) (hb : b.val = t.val / 4) :
    k0_pay3 (F := Ideal) (iblk m c 1 t) (iblk m c 3 t) = projArr m c b := by
  funext j
  obtain ⟨s, k, rfl⟩ : ∃ (s k : Fin 1024), j = ix2 s k := ⟨⟨(j 0).val, (j 0).isLt⟩, ⟨(j 1).val, (j 1).isLt⟩, eq_ix2 j⟩
  refine (Cert.KernelIdeal.Payload.pay3_apply (iblk m c 1 t) (iblk m c 3 t) s k).trans ?_
  rw [projArr_ix2]
  exact proj_congr (fun s h => blk1_at m c t s h b hb) (fun h k => blk3_at m c t h k) s k

/-- THE INVARIANT, by induction on the point: at the first tile of a batch the body stores the batch's projection; at the
    other tiles it keeps what the point before (a tile of the same batch) left. -/
theorem scratch_eq (c : Dev nD) : ∀ (n : ℕ) (hn : n < cfg0.N) (b : Fin 16), b.val = n / 4 → (outsAt0 m c n hn).2 = projArr m c b := by
  intro n
  induction n with
  | zero =>
    intro hn b hb
    rw [outsAt0_A m c ⟨0, hn⟩ rfl]
    dsimp only
    exact (Cert.KernelIdeal.Pieces.sout_A (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)).trans
      (pay3_blocks m c ⟨0, hn⟩ b hb)
  | succ n ih =>
    intro hn b hb
    by_cases h0 : (n + 1) % 4 = 0
    · rw [outsAt0_A m c ⟨n + 1, hn⟩ h0]
      dsimp only
      exact (Cert.KernelIdeal.Pieces.sout_A (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)).trans
        (pay3_blocks m c ⟨n + 1, hn⟩ b hb)
    · rw [outsAt0_B m c ⟨n + 1, hn⟩ h0]
      dsimp only [sout0_B_0]
      exact ih (Nat.lt_of_succ_lt hn) b (by omega)

/-! ## The output tile of a point -/

/-- THE LAYER of the argument arrays (the mask the host operations compute from `source`), as the result array. -/
def G (c : Dev nD) : Buf (Elt Ideal) ((c : Thread nD τ).loc main_v18) :=
  Cert.Spec.out (m ((c : Thread nD τ).loc main_arg0)) (m ((c : Thread nD τ).loc main_arg1)) (m ((c : Thread nD τ).loc main_arg2))
    (m ((c : Thread nD τ).loc main_arg3)) (m ((c : Thread nD τ).loc main_arg4)) (maskK (m ((c : Thread nD τ).loc main_arg5)))

/-- The output payload of a point's blocks, over a scratch that holds the batch's projection, is the layer's rows
    `256 · (t % 4) + p` of batch `t / 4`. -/
theorem pay1_blocks (c : Dev nD) (t : Fin cfg0.N) (b : Fin 16) (hb : b.val = t.val / 4) (xs : Vec Ideal S1024x1024 .bf16)
    (hxs : xs = projArr m c b) (p : Fin 256) (o : Fin 1024) (r : Fin 1024) (hr : r.val = 256 * (t.val % 4) + p.val) :
    k0_pay1 (F := Ideal) (k0_pay4 (iblk m c 1 t) (iblk m c 0 t) xs (iblk m c 2 t) (iblk m c 4 t) (iblk m c 5 t)) (iblk m c 6 t) (ix3 (0 : Fin 1) p o)
      = G m c (ix3 b r o) := by
  subst hxs
  refine (Cert.KernelIdeal.Payload.pay1_apply (iblk m c 0 t) (iblk m c 1 t) (iblk m c 2 t) (projArr m c b) (iblk m c 4 t) (iblk m c 5 t) (iblk m c 6 t) p o).trans ?_
  show _ = Cert.Spec.outAt _ _ _ _ _ _ b r o
  unfold Cert.Spec.outAt
  exact row_congr (fun h => blk0_at m c t p h b r hb hr) (fun s h => blk1_at m c t s h b hb) (fun s h => projArr_ix2 m c b s h)
    (fun s => blk2_at m c t s b hb) (fun k o => blk4_at m c t k o) (fun k o => blk5_at m c t k o) (fun j => blk6_at m c t j) o

/-- What a point leaves in the output's staging buffer, row `p`, feature `o`. -/
theorem tile_eq (c : Dev nD) (t : Fin cfg0.N) (b : Fin 16) (hb : b.val = t.val / 4) (p : Fin 256) (o : Fin 1024) (r : Fin 1024)
    (hr : r.val = 256 * (t.val % 4) + p.val) :
    (outsAt0 m c t.val t.isLt).1 (ix3 (0 : Fin 1) p o) = G m c (ix3 b r o) := by
  by_cases h0 : t.val % 4 = 0
  · rw [outsAt0_A m c t h0]
    dsimp only
    refine (congrFun (Cert.KernelIdeal.Pieces.out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t)) _).trans ?_
    exact pay1_blocks m c t b hb _ (pay3_blocks m c t b hb) p o r hr
  · rw [outsAt0_B m c t h0]
    dsimp only
    refine (congrFun (Cert.KernelIdeal.Pieces.out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (iblk m c 6 t) _) _).trans ?_
    have hN : t.val < 64 := lt_of_lt_of_eq t.isLt (show cfg0.N = 64 from N_0)
    exact pay1_blocks m c t b hb _ (scratch_eq m c (t.val - 1) _ b (by omega)) p o r hr

/-! ## From the tiles to the array -/

/-- WHAT POINT `t` WRITES BACK is block `t` of the layer. -/
theorem flushed_eq (c : Dev nD) (t : Fin cfg0.N) :
    (dats m 0 c).flushed 7 t = ((cfg0.win 7).blk t).view.read (Elt Ideal) (G m c) := by
  rw [Cert.KernelIdeal.Value.flushed7]
  have hN : t.val < 64 := lt_of_lt_of_eq t.isLt (show cfg0.N = 64 from N_0)
  obtain ⟨-, -, -, -, -, -, -, -, -, -, -, -, -, -, -, -, -, e0, e1, e2⟩ := idx_facts t
  have key : ∀ y : S1x256x1024.Idx, (outsAt0 m c t.val t.isLt).1 y = G m c (((cfg0.win 7).blk t).view.emb y) := by
    intro y
    obtain ⟨u, p, o, rfl⟩ : ∃ (u : Fin 1) (p : Fin 256) (o : Fin 1024), y = ix3 u p o := ⟨y 0, y 1, y 2, eq_ix3 y⟩
    obtain rfl : u = 0 := Subsingleton.elim _ _
    have he : ((cfg0.win 7).blk t).view.emb (ix3 (0 : Fin 1) p o)
        = ix3 (⟨t.val / 4, by omega⟩ : Fin 16) (⟨256 * (t.val % 4) + p.val, by omega⟩ : Fin 1024) o := by
      funext a; apply Fin.ext
      match a with
      | ⟨0, _⟩ => show win0_7.index t (0 : Fin 3) * 1 + 1 * 0 = t.val / 4; omega
      | ⟨1, _⟩ => show win0_7.index t (1 : Fin 3) * 256 + 1 * p.val = 256 * (t.val % 4) + p.val; omega
      | ⟨2, _⟩ => show win0_7.index t (2 : Fin 3) * 1024 + 1 * o.val = o.val; omega
    rw [he]
    exact tile_eq m c t ⟨t.val / 4, by omega⟩ rfl p o ⟨256 * (t.val % 4) + p.val, by omega⟩ rfl
  funext y
  rw [View.read_apply]
  exact key y

/-- An index of the result array is in point `t`'s block iff each coordinate is in the block's range on its axis. -/
theorem mem_blk (t : Fin cfg0.N) (i : S16x1024x1024.Idx) :
    i ∈ ((cfg0.win 7).blk t).view.set ↔ ∀ a : Fin 3, win0_7.index t a * S1x256x1024.size a ≤ (i a).val ∧ (i a).val < win0_7.index t a * S1x256x1024.size a + S1x256x1024.size a := by
  show i ∈ ((View.whole main_v18).slice (win0_7.rect t)).set ↔ _
  rw [View.set_slice_whole, Rect.mem_set_unit]
  exact Iff.rfl

/-- The 64 blocks cover the result array: index `(b, r, o)` is in the block of point `4 b + r / 256`. -/
theorem cover (i : S16x1024x1024.Idx) : ∃ t : Fin cfg0.N, (cfg0.win 7).flush t = true ∧ i ∈ ((cfg0.win 7).blk t).view.set := by
  have h0 : (i 0).val < 16 := (i 0).isLt
  have h1 : (i 1).val < 1024 := (i 1).isLt
  have h2 : (i 2).val < 1024 := (i 2).isLt
  have hlt : 4 * (i 0).val + (i 1).val / 256 < cfg0.N := lt_of_lt_of_eq (by omega : 4 * (i 0).val + (i 1).val / 256 < 64) (N_0).symm
  refine ⟨⟨4 * (i 0).val + (i 1).val / 256, hlt⟩, flush0_7 _, ?_⟩
  rw [mem_blk]
  obtain ⟨-, -, -, -, -, -, -, -, -, -, -, -, -, -, -, -, -, e0, e1, e2⟩ := idx_facts ⟨4 * (i 0).val + (i 1).val / 256, hlt⟩
  intro a
  match a with
  | ⟨0, _⟩ =>
    show win0_7.index _ (0 : Fin 3) * 1 ≤ (i 0).val ∧ (i 0).val < win0_7.index _ (0 : Fin 3) * 1 + 1
    rw [e0]; dsimp only; omega
  | ⟨1, _⟩ =>
    show win0_7.index _ (1 : Fin 3) * 256 ≤ (i 1).val ∧ (i 1).val < win0_7.index _ (1 : Fin 3) * 256 + 256
    rw [e1]; dsimp only; omega
  | ⟨2, _⟩ =>
    show win0_7.index _ (2 : Fin 3) * 1024 ≤ (i 2).val ∧ (i 2).val < win0_7.index _ (2 : Fin 3) * 1024 + 1024
    rw [e2]; omega

/-- THE RESULT ARRAY after the run is the layer of the argument arrays. -/
theorem final (c : Dev nD) : (dats m 0 c).arrAt 7 cfg0.N = G m c :=
  (dats m 0 c).arrAt_eq_of_cover 7 (G m c) (fun t _ => flushed_eq m c t) cover

/-- The kernel's run, read: the result array at the layer, the arguments unchanged. -/
theorem run : θ_run defs (onTc (τ := τ) (main (F := Ideal))) ⟨m, fun _ => 0, ρ⟩ fun r => ∀ c : Dev nD,
      r.2.mem ((c : Thread nD τ).loc main_v18) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.KValue

end
-- ==== Proof.RefSpec.lean ====
/-
  The reference computes the layer: its result array, read at (batch, target position, output feature), is
  `Spec.outAt` of the argument arrays and of the mask its own integer operations compute from `source`.

  The reference contracts the concatenation [context, target] (2048 features) against all of W_c in one sum; the
  layer is stated with the two halves apart. The sum over 2048 indices splits into the first and the last 1024
  (`Spec.sum_halves`: addition on the extended reals is commutative and associative), and on each half the
  concatenation reads its own piece.
-/
import proofs.«178514_j70205535420559_2_alg».proof.Proof.RefRead
import proofs.«178514_j70205535420559_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

/-- The reference's mask stage, `(arange < count of nonzero source tokens)` as f32, of the `source` array. -/
abbrev maskOf (x5 : (⟨S16x1024, .i32⟩ : BufTy).Contents (Elt Ideal)) : (⟨S16x1024, .f32⟩ : BufTy).Contents (Elt Ideal) :=
  Cert.ReferenceIdeal.ReadP.val_main_v16 (F := Ideal) x5

open Cert.ReferenceIdeal.ReadP

variable (x0 x1 : (⟨S16x1024x1024, .f32⟩ : BufTy).Contents (Elt Ideal)) (x2 : (⟨S1024x1024, .f32⟩ : BufTy).Contents (Elt Ideal))
  (x3 : (⟨S2048x1024, .f32⟩ : BufTy).Contents (Elt Ideal)) (x4 : (⟨S1024, .f32⟩ : BufTy).Contents (Elt Ideal))
  (x5 : (⟨S16x1024, .i32⟩ : BufTy).Contents (Elt Ideal))

/-! ## The index functions of the stages, at an index given by its coordinates -/

theorem lidx_v0_ix (b : Fin 16) (s k h : Fin 1024) : lidx_main_v0 (ix3 b s k) h = ix3 b s h :=
  funext fun a => by match a with | ⟨0, _⟩ => rfl | ⟨1, _⟩ => rfl | ⟨2, _⟩ => rfl
theorem ridx_v0_ix (b : Fin 16) (s k h : Fin 1024) : ridx_main_v0 (ix3 b s k) h = ix2 h k :=
  funext fun a => by match a with | ⟨0, _⟩ => rfl | ⟨1, _⟩ => rfl
theorem lidx_v1_ix (b : Fin 16) (t s h : Fin 1024) : lidx_main_v1 (ix3 b t s) h = ix3 b t h :=
  funext fun a => by match a with | ⟨0, _⟩ => rfl | ⟨1, _⟩ => rfl | ⟨2, _⟩ => rfl
theorem ridx_v1_ix (b : Fin 16) (t s h : Fin 1024) : ridx_main_v1 (ix3 b t s) h = ix3 b s h :=
  funext fun a => by match a with | ⟨0, _⟩ => rfl | ⟨1, _⟩ => rfl | ⟨2, _⟩ => rfl
theorem idx_v3v4_ix (b : Fin 16) (t s : Fin 1024) : idx_main_v3 (idx_main_v4 (ix3 b t s)) = ix2 b t :=
  funext fun a => by match a with | ⟨0, _⟩ => rfl | ⟨1, _⟩ => rfl

/-! ## The stages, bottom up -/

/-- The projected source states. -/
theorem v0_at (b : Fin 16) (s k : Fin 1024) :
    val_main_v0 (F := Ideal) x1 x2 (ix3 b s k) = Cert.Spec.proj (Cert.Spec.srcOf x1 b) (Cert.Spec.waOf x2) s k := by
  refine (val_main_v0_apply x1 x2 (ix3 b s k)).trans ?_
  refine Finset.sum_congr rfl fun h _ => ?_
  rw [lidx_v0_ix, ridx_v0_ix]
  rfl

/-- The scores. -/
theorem v1_at (b : Fin 16) (t s : Fin 1024) :
    val_main_v1 (F := Ideal) x0 x1 x2 (ix3 b t s)
      = Cert.Spec.score (fun h => x0 (ix3 b t h)) (Cert.Spec.proj (Cert.Spec.srcOf x1 b) (Cert.Spec.waOf x2)) s := by
  refine (val_main_v1_apply x0 x1 x2 (ix3 b t s)).trans ?_
  refine Finset.sum_congr rfl fun h _ => ?_
  rw [lidx_v1_ix, ridx_v1_ix, v0_at]

/-- The index of the scores over (b, t) with the source position `k` put back on the reduced axis. -/
theorem lift_v2_ix (h : S16x1024x1024.Reduces [2] S16x1024) (b : Fin 16) (t : Fin 1024) (k : Fin (S16x1024x1024.size 2)) :
    h.lift (ix2 b t) k = ix3 b t (⟨k.val, k.isLt⟩ : Fin 1024) := by
  funext c; apply Fin.ext
  match c with | ⟨0, _⟩ => rfl | ⟨1, _⟩ => rfl | ⟨2, _⟩ => rfl

/-- The row maximum of the scores, taken from −∞. -/
theorem v2_at (b : Fin 16) (t : Fin 1024) :
    val_main_v2 (F := Ideal) x0 x1 x2 (ix2 b t)
      = Cert.Spec.peak (fun h => x0 (ix3 b t h)) (Cert.Spec.proj (Cert.Spec.srcOf x1 b) (Cert.Spec.waOf x2)) := by
  have h : S16x1024x1024.Reduces [2] S16x1024 := by decide
  have e := Host.reduce_eq_fold_single (FloatOps.maximumf (F := Ideal) (φ := .f32)) (val_main_v1 (F := Ideal) x0 x1 x2)
    (val_main_cst (F := Ideal)) reducesTo_S16x1024x1024_S16x1024_d2 h h_S_ (ix2 b t)
  have hf : (val_main_v1 (F := Ideal) x0 x1 x2 ∘ h.lift (ix2 b t))
      = Cert.Spec.score (fun h => x0 (ix3 b t h)) (Cert.Spec.proj (Cert.Spec.srcOf x1 b) (Cert.Spec.waOf x2)) :=
    funext fun k => by
      show val_main_v1 (F := Ideal) x0 x1 x2 (h.lift (ix2 b t) k) = _
      rw [lift_v2_ix, v1_at]
      exact congrArg _ (Fin.ext rfl)
  rw [hf] at e
  exact e

theorem idx_v18v19_ix (b : Fin 16) (t s : Fin 1024) : idx_main_v18 (idx_main_v19 (ix3 b t s)) = ix2 b s :=
  funext fun a => by match a with | ⟨0, _⟩ => rfl | ⟨1, _⟩ => rfl
theorem idx_v21_ix (b : Fin 16) (t s : Fin 1024) : idx_main_v21 (ix2 b t) s = ix3 b t s :=
  funext fun a => by match a with | ⟨0, _⟩ => rfl | ⟨1, _⟩ => rfl | ⟨2, _⟩ => rfl
theorem idx_v22v23_ix (b : Fin 16) (t s : Fin 1024) : idx_main_v22 (idx_main_v23 (ix3 b t s)) = ix2 b t :=
  funext fun a => by match a with | ⟨0, _⟩ => rfl | ⟨1, _⟩ => rfl
theorem lidx_v25_ix (b : Fin 16) (t h s : Fin 1024) : lidx_main_v25 (ix3 b t h) s = ix3 b t s :=
  funext fun a => by match a with | ⟨0, _⟩ => rfl | ⟨1, _⟩ => rfl | ⟨2, _⟩ => rfl
theorem ridx_v25_ix (b : Fin 16) (t h s : Fin 1024) : ridx_main_v25 (ix3 b t h) s = ix3 b s h :=
  funext fun a => by match a with | ⟨0, _⟩ => rfl | ⟨1, _⟩ => rfl | ⟨2, _⟩ => rfl

/-- The row maximum, broadcast back along the source positions. -/
theorem v4_at (b : Fin 16) (t s : Fin 1024) :
    val_main_v4 (F := Ideal) x0 x1 x2 (ix3 b t s)
      = Cert.Spec.peak (fun h => x0 (ix3 b t h)) (Cert.Spec.proj (Cert.Spec.srcOf x1 b) (Cert.Spec.waOf x2)) := by
  rw [val_main_v4_apply, val_main_v3_apply, idx_v3v4_ix, v2_at]

/-- The score less the row maximum. -/
theorem v5_at (b : Fin 16) (t s : Fin 1024) :
    val_main_v5 (F := Ideal) x0 x1 x2 (ix3 b t s)
      = Cert.Spec.score (fun h => x0 (ix3 b t h)) (Cert.Spec.proj (Cert.Spec.srcOf x1 b) (Cert.Spec.waOf x2)) s
        - Cert.Spec.peak (fun h => x0 (ix3 b t h)) (Cert.Spec.proj (Cert.Spec.srcOf x1 b) (Cert.Spec.waOf x2)) := by
  rw [val_main_v5_apply, Ideal.subf_def, v1_at, v4_at]

/-- Its exponential. -/
theorem v17_at (b : Fin 16) (t s : Fin 1024) :
    val_main_v17 (F := Ideal) x0 x1 x2 (ix3 b t s)
      = Ideal.exp (Cert.Spec.score (fun h => x0 (ix3 b t h)) (Cert.Spec.proj (Cert.Spec.srcOf x1 b) (Cert.Spec.waOf x2)) s
        - Cert.Spec.peak (fun h => x0 (ix3 b t h)) (Cert.Spec.proj (Cert.Spec.srcOf x1 b) (Cert.Spec.waOf x2))) := by
  rw [val_main_v17_apply, Ideal.hostUnary_exp_def, v5_at]

/-- The mask, broadcast along the target positions. -/
theorem v19_at (b : Fin 16) (t s : Fin 1024) :
    val_main_v19 (F := Ideal) x5 (ix3 b t s) = maskOf x5 (ix2 b s) := by
  rw [val_main_v19_apply, val_main_v18_apply, idx_v18v19_ix]

/-- The masked weights. -/
theorem v20_at (b : Fin 16) (t s : Fin 1024) :
    val_main_v20 (F := Ideal) x0 x1 x2 x5 (ix3 b t s)
      = Cert.Spec.weight (fun h => x0 (ix3 b t h)) (Cert.Spec.proj (Cert.Spec.srcOf x1 b) (Cert.Spec.waOf x2))
          (fun s => maskOf x5 (ix2 b s)) s := by
  rw [val_main_v20_apply, Ideal.mulf_def, v17_at, v19_at]
  rfl

/-- Their sum over the source positions, from the zero word. -/
theorem v21_at (b : Fin 16) (t : Fin 1024) :
    val_main_v21 (F := Ideal) x0 x1 x2 x5 (ix2 b t)
      = Cert.Spec.total (fun h => x0 (ix3 b t h)) (Cert.Spec.proj (Cert.Spec.srcOf x1 b) (Cert.Spec.waOf x2))
          (fun s => maskOf x5 (ix2 b s)) := by
  refine (val_main_v21_apply x0 x1 x2 x5 (ix2 b t)).trans ?_
  rw [val_main_cst_1_apply, Ideal.ofBits_def, Ideal.ofBits_zero_f32, zero_add]
  refine Finset.sum_congr rfl fun s _ => ?_
  rw [idx_v21_ix, v20_at]

/-- The sum, broadcast back along the source positions. -/
theorem v23_at (b : Fin 16) (t s : Fin 1024) :
    val_main_v23 (F := Ideal) x0 x1 x2 x5 (ix3 b t s)
      = Cert.Spec.total (fun h => x0 (ix3 b t h)) (Cert.Spec.proj (Cert.Spec.srcOf x1 b) (Cert.Spec.waOf x2))
          (fun s => maskOf x5 (ix2 b s)) := by
  rw [val_main_v23_apply, val_main_v22_apply, idx_v22v23_ix, v21_at]

/-- The attention weights. -/
theorem v24_at (b : Fin 16) (t s : Fin 1024) :
    val_main_v24 (F := Ideal) x0 x1 x2 x5 (ix3 b t s)
      = Cert.Spec.attn (fun h => x0 (ix3 b t h)) (Cert.Spec.proj (Cert.Spec.srcOf x1 b) (Cert.Spec.waOf x2))
          (fun s => maskOf x5 (ix2 b s)) s := by
  rw [val_main_v24_apply, Ideal.hostDivf_def, v20_at, v23_at]
  rfl

/-- The context vector. -/
theorem v25_at (b : Fin 16) (t h : Fin 1024) :
    val_main_v25 (F := Ideal) x0 x1 x2 x5 (ix3 b t h)
      = Cert.Spec.ctx (fun h => x0 (ix3 b t h)) (Cert.Spec.proj (Cert.Spec.srcOf x1 b) (Cert.Spec.waOf x2))
          (fun s => maskOf x5 (ix2 b s)) (Cert.Spec.srcOf x1 b) h := by
  refine (val_main_v25_apply x0 x1 x2 x5 (ix3 b t h)).trans ?_
  refine Finset.sum_congr rfl fun s _ => ?_
  rw [lidx_v25_ix, ridx_v25_ix, v24_at]
  rfl

theorem lidx_v27_ix (b : Fin 16) (t o : Fin 1024) (k : Fin 2048) : lidx_main_v27 (ix3 b t o) k = ix3 b t k :=
  funext fun a => by match a with | ⟨0, _⟩ => rfl | ⟨1, _⟩ => rfl | ⟨2, _⟩ => rfl
theorem ridx_v27_ix (b : Fin 16) (t o : Fin 1024) (k : Fin 2048) : ridx_main_v27 (ix3 b t o) k = ix2 k o :=
  funext fun a => by match a with | ⟨0, _⟩ => rfl | ⟨1, _⟩ => rfl
theorem idx_v28v29_ix (b : Fin 16) (t o : Fin 1024) : idx_main_v28 (idx_main_v29 (ix3 b t o)) = ix1 o :=
  funext fun a => by match a with | ⟨0, _⟩ => rfl

/-- On the first 1024 features the concatenation reads the context. -/
theorem v26_left (b : Fin 16) (t k : Fin 1024) :
    val_main_v26 (F := Ideal) x0 x1 x2 x5 (ix3 b t (⟨k.val, by omega⟩ : Fin 2048))
      = val_main_v25 (F := Ideal) x0 x1 x2 x5 (ix3 b t k) := by
  unfold val_main_v26
  generalize val_main_v25 (F := Ideal) x0 x1 x2 x5 = y
  exact concatenate_pair_apply_left (2 : Fin S16x1024x2048.rank) y x0
    concatenates_S16x1024x1024_S16x1024x1024_S16x1024x2048_d2
    (ix3 b t (⟨k.val, by omega⟩ : Fin 2048)) rfl (ix3 b t k)
    (fun a => by match a with | ⟨0, _⟩ => rfl | ⟨1, _⟩ => rfl | ⟨2, _⟩ => rfl)

/-- On the last 1024 features it reads the target states. -/
theorem v26_right (b : Fin 16) (t k : Fin 1024) :
    val_main_v26 (F := Ideal) x0 x1 x2 x5 (ix3 b t (⟨1024 + k.val, by omega⟩ : Fin 2048)) = x0 (ix3 b t k) := by
  unfold val_main_v26
  generalize val_main_v25 (F := Ideal) x0 x1 x2 x5 = y
  exact concatenate_pair_apply_right (2 : Fin S16x1024x2048.rank) y x0
    concatenates_S16x1024x1024_S16x1024x1024_S16x1024x2048_d2
    (ix3 b t (⟨1024 + k.val, by omega⟩ : Fin 2048)) rfl rfl (ix3 b t k)
    (fun a ha => by
      match a, ha with
      | ⟨0, _⟩, _ => rfl
      | ⟨1, _⟩, _ => rfl
      | ⟨2, _⟩, ha => exact (ha (Fin.ext rfl)).elim)
    (by show k.val + 1024 = 1024 + k.val; omega)

/-- The contraction against W_c, in its two halves. -/
theorem v27_at (b : Fin 16) (t o : Fin 1024) :
    val_main_v27 (F := Ideal) x0 x1 x2 x3 x5 (ix3 b t o)
      = ∑ k : Fin 1024, Cert.Spec.ctx (fun h => x0 (ix3 b t h)) (Cert.Spec.proj (Cert.Spec.srcOf x1 b) (Cert.Spec.waOf x2))
            (fun s => maskOf x5 (ix2 b s)) (Cert.Spec.srcOf x1 b) k * Cert.Spec.topOf x3 k o
        + ∑ k : Fin 1024, x0 (ix3 b t k) * Cert.Spec.botOf x3 k o := by
  refine (val_main_v27_apply x0 x1 x2 x3 x5 (ix3 b t o)).trans ?_
  have e1 : ∑ k : Fin 2048, (val_main_v26 (F := Ideal) x0 x1 x2 x5) (lidx_main_v27 (ix3 b t o) k) * x3 (ridx_main_v27 (ix3 b t o) k)
      = ∑ k : Fin 2048, val_main_v26 (F := Ideal) x0 x1 x2 x5 (ix3 b t k) * x3 (ix2 k o) :=
    Finset.sum_congr rfl fun k _ => by rw [lidx_v27_ix, ridx_v27_ix]
  refine e1.trans ?_
  refine (Cert.Spec.sum_halves (fun k : Fin 2048 => val_main_v26 (F := Ideal) x0 x1 x2 x5 (ix3 b t k) * x3 (ix2 k o))).trans ?_
  refine congrArg₂ (· + ·) (Finset.sum_congr rfl fun k _ => ?_) (Finset.sum_congr rfl fun k _ => ?_)
  · beta_reduce
    rw [v26_left, v25_at]
    rfl
  · beta_reduce
    rw [v26_right]
    rfl

/-- THE REFERENCE IS THE LAYER, index by index. -/
theorem ref_is_spec (x0 x1 : (⟨S16x1024x1024, .f32⟩ : BufTy).Contents (Elt Ideal)) (x2 : (⟨S1024x1024, .f32⟩ : BufTy).Contents (Elt Ideal))
    (x3 : (⟨S2048x1024, .f32⟩ : BufTy).Contents (Elt Ideal)) (x4 : (⟨S1024, .f32⟩ : BufTy).Contents (Elt Ideal))
    (x5 : (⟨S16x1024, .i32⟩ : BufTy).Contents (Elt Ideal)) (b : Fin 16) (t o : Fin 1024) :
    Cert.ReferenceIdeal.ReadP.val_main_v31 (F := Ideal) x0 x1 x2 x3 x4 x5 (ix3 b t o)
      = Cert.Spec.outAt x0 x1 x2 x3 x4 (maskOf x5) b t o := by
  rw [val_main_v31_apply, Ideal.hostUnary_tanh_def, val_main_v30_apply, Ideal.addf_def, v27_at, val_main_v29_apply,
    val_main_v28_apply, idx_v28v29_ix]
  rfl

end Cert.ReferenceIdeal.RefValue

end
-- ==== Proof.lean ====
/-
  The kernel — one fused attention layer per (batch, target tile), the projected source states computed once per batch
  into a scratch carried across the batch's tiles — and its jnp reference compute the same function on the extended
  reals: `tanh ((ctx · W_c[:1024] + ht · W_c[1024:]) + b)`, the context `ctx` the masked-softmax attention of the target
  rows over the projected source rows (Proof/Spec.lean states it once, for one target row).

  * The kernel's side (Proof/Blocks.lean, Proof/Pieces.lean, Proof/PayProj.lean, Proof/PayOut.lean, Proof/KValue.lean):
    each window's block is read at an index of the argument arrays; each case of the body leaves in the scratch and in
    the output tile the value of its one covering store; the scratch holds the batch's projection after every point of
    the batch (induction on the point); the output payload at a row is the layer's row; the 64 output blocks cover
    the result array.
  * The reference's side (Proof/RefRun.lean, Proof/RefRead.lean, Proof/RefSpec.lean): its run is the composed term of
    its 36 host operations, read one operation at a time; the contraction over the 2048 concatenated features splits
    into the first and the last 1024 — the one algebraic law, addition's commutativity and associativity, which holds
    on all of the extended reals, so the precondition (finite inputs) is never opened.
  * The two masks are one term: both programs compute it from `source` by the same integer operations.
  * The ideal pass rewrote nothing, so `preserves` is `True`; the three frames are the generated frame runs.
-/
import proofs.«178514_j70205535420559_2_alg».proof.Defs
import proofs.«178514_j70205535420559_2_alg».proof.Proof.Gen.Kernel
import proofs.«178514_j70205535420559_2_alg».proof.Proof.Gen.Kernel.Skeleton
import proofs.«178514_j70205535420559_2_alg».proof.Proof.Gen.Kernel.Launch
import proofs.«178514_j70205535420559_2_alg».proof.Proof.Gen.Kernel.Points
import proofs.«178514_j70205535420559_2_alg».proof.Proof.Gen.Kernel.Frame
import proofs.«178514_j70205535420559_2_alg».proof.Proof.Gen.KernelIdeal
import proofs.«178514_j70205535420559_2_alg».proof.Proof.Gen.KernelIdeal.Skeleton
import proofs.«178514_j70205535420559_2_alg».proof.Proof.Gen.KernelIdeal.Launch
import proofs.«178514_j70205535420559_2_alg».proof.Proof.Gen.KernelIdeal.Points
import proofs.«178514_j70205535420559_2_alg».proof.Proof.Gen.KernelIdeal.Frame
import proofs.«178514_j70205535420559_2_alg».proof.Proof.Gen.ReferenceIdeal
import proofs.«178514_j70205535420559_2_alg».proof.Proof.Gen.Pre_finite_inputs
import proofs.«178514_j70205535420559_2_alg».proof.Proof.Gen.KernelIdeal.Value
import proofs.«178514_j70205535420559_2_alg».proof.Proof.KValue
import proofs.«178514_j70205535420559_2_alg».proof.Proof.RefSpec
import Idealize.ShloMosaic.Adequacy
import Idealize.ShloMosaic.Init

noncomputable section

namespace Cert.Proof

open Idealize.ShloMosaic Idealize.SL.Sem Idealize.ShloMosaic.ValueIdx

/-- The mask the reference computes from `source` and the mask the kernel's host operations compute from it are the same
    term: the same integer operations in the same order. -/
theorem mask_eq (x5 : (⟨Cert.KernelIdeal.S16x1024, .i32⟩ : BufTy).Contents (Elt Ideal)) :
    Cert.ReferenceIdeal.RefValue.maskOf x5 = Cert.KernelIdeal.KValue.maskK (F := Ideal) x5 := rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result array at the layer of the (agreeing) argument arrays. -/
theorem algebraic : Cert.algebraic_KernelIdeal_ReferenceIdeal := by
  intro m ρ m' ρ' _ hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v31_eq, (hagree c).1, (hagree c).2.1, (hagree c).2.2.1, (hagree c).2.2.2.1,
    (hagree c).2.2.2.2.1, (hagree c).2.2.2.2.2]
  funext i
  obtain ⟨b, t, o, rfl⟩ : ∃ (b : Fin 16) (t o : Fin 1024), i = ix3 b t o := ⟨i 0, i 1, i 2, eq_ix3 i⟩
  rw [Cert.ReferenceIdeal.RefValue.ref_is_spec, mask_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
